-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16x64x256x256 .f32) (main_arg1 : FVec F S16x64 .f32) (main_arg2 : FVec F S16 .f32) (main_arg3 : FVec F S64x16 .f32) (main_arg4 : FVec F S64 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_v13 main_v16
-- ==== Kernel.lean ====
abbrev S16x64x256x256 : Shape := ⟨4, ![16, 64, 256, 256]⟩
abbrev S16x64 : Shape := ⟨2, ![16, 64]⟩
abbrev S16 : Shape := ⟨1, ![16]⟩
abbrev S64x16 : Shape := ⟨2, ![64, 16]⟩
abbrev S64 : Shape := ⟨1, ![64]⟩
abbrev S1x64x256x256 : Shape := ⟨4, ![1, 64, 256, 256]⟩
abbrev S1x64x16x256 : Shape := ⟨4, ![1, 64, 16, 256]⟩
abbrev S64x16x256 : Shape := ⟨3, ![64, 16, 256]⟩
abbrev S1x64 : Shape := ⟨2, ![1, 64]⟩
abbrev S1x16 : Shape := ⟨2, ![1, 16]⟩
abbrev S64x1x1 : Shape := ⟨3, ![64, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x64x256x256, .f32⟩
  | .hbm, ⟨1, _⟩ => ⟨S16x64, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S16x64x256x256, .f32⟩
  | .local _ .vmem, ⟨0, _⟩ => ⟨S1x64x256x256, .f32⟩
  | .local _ .vmem, ⟨1, _⟩ => ⟨S16x64, .f32⟩
  | .local _ .vmem, ⟨2, _⟩ => ⟨S16, .f32⟩
  | .local _ .vmem, ⟨3, _⟩ => ⟨S64x16, .f32⟩
  | .local _ .vmem, ⟨4, _⟩ => ⟨S64, .f32⟩
  | .local _ .vmem, ⟨5, _⟩ => ⟨S1x64x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x64x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

class Facts₀ : Prop where
  inb_S16x64_S16x64_0_0 : ∀ a, (![0, 0] : Fin 2 → Nat) a + S16x64.size a ≤ S16x64.size a
  h_S16x64 : 0 < S16x64.numel
  inb_S16_S16_0 : ∀ a, (![0] : Fin 1 → Nat) a + S16.size a ≤ S16.size a
  h_S16 : 0 < S16.numel
  inb_S64x16_S64x16_0_0 : ∀ a, (![0, 0] : Fin 2 → Nat) a + S64x16.size a ≤ S64x16.size a
  h_S64x16 : 0 < S64x16.numel
  inb_S64_S64_0 : ∀ a, (![0] : Fin 1 → Nat) a + S64.size a ≤ S64.size a
  h_S64 : 0 < S64.numel
  inb_S1x64x256x256_S1x64x16x256_0_0_0_0 : ∀ a, (![0, 0, 0, 0] : Fin 4 → Nat) a + S1x64x16x256.size a ≤ S1x64x256x256.size a
  h_S1x64x16x256 : 0 < S1x64x16x256.numel
  shapeCasts_S1x64x16x256_S64x16x256 : S1x64x16x256.ShapeCasts S64x16x256
  reduces_S64x16x256_S64x16 : S64x16x256.Reduces [2] S64x16
  reduces_S64x16_S64 : S64x16.Reduces [1] S64
  inb_S1x64x256x256_S1x64x16x256_0_0_16_0 : ∀ a, (![0, 0, 16, 0] : Fin 4 → Nat) a + S1x64x16x256.size a ≤ S1x64x256x256.size a
  inb_S1x64x256x256_S1x64x16x256_0_0_32_0 : ∀ a, (![0, 0, 32, 0] : Fin 4 → Nat) a + S1x64x16x256.size a ≤ S1x64x256x256.size a
  inb_S1x64x256x256_S1x64x16x256_0_0_48_0 : ∀ a, (![0, 0, 48, 0] : Fin 4 → Nat) a + S1x64x16x256.size a ≤ S1x64x256x256.size a
  inb_S1x64x256x256_S1x64x16x256_0_0_64_0 : ∀ a, (![0, 0, 64, 0] : Fin 4 → Nat) a + S1x64x16x256.size a ≤ S1x64x256x256.size a
  inb_S1x64x256x256_S1x64x16x256_0_0_80_0 : ∀ a, (![0, 0, 80, 0] : Fin 4 → Nat) a + S1x64x16x256.size a ≤ S1x64x256x256.size a
  inb_S1x64x256x256_S1x64x16x256_0_0_96_0 : ∀ a, (![0, 0, 96, 0] : Fin 4 → Nat) a + S1x64x16x256.size a ≤ S1x64x256x256.size a
  inb_S1x64x256x256_S1x64x16x256_0_0_112_0 : ∀ a, (![0, 0, 112, 0] : Fin 4 → Nat) a + S1x64x16x256.size a ≤ S1x64x256x256.size a
  inb_S1x64x256x256_S1x64x16x256_0_0_128_0 : ∀ a, (![0, 0, 128, 0] : Fin 4 → Nat) a + S1x64x16x256.size a ≤ S1x64x256x256.size a
  inb_S1x64x256x256_S1x64x16x256_0_0_144_0 : ∀ a, (![0, 0, 144, 0] : Fin 4 → Nat) a + S1x64x16x256.size a ≤ S1x64x256x256.size a
  inb_S1x64x256x256_S1x64x16x256_0_0_160_0 : ∀ a, (![0, 0, 160, 0] : Fin 4 → Nat) a + S1x64x16x256.size a ≤ S1x64x256x256.size a
  inb_S1x64x256x256_S1x64x16x256_0_0_176_0 : ∀ a, (![0, 0, 176, 0] : Fin 4 → Nat) a + S1x64x16x256.size a ≤ S1x64x256x256.size a
  inb_S1x64x256x256_S1x64x16x256_0_0_192_0 : ∀ a, (![0, 0, 192, 0] : Fin 4 → Nat) a + S1x64x16x256.size a ≤ S1x64x256x256.size a
  inb_S1x64x256x256_S1x64x16x256_0_0_208_0 : ∀ a, (![0, 0, 208, 0] : Fin 4 → Nat) a + S1x64x16x256.size a ≤ S1x64x256x256.size a
  inb_S1x64x256x256_S1x64x16x256_0_0_224_0 : ∀ a, (![0, 0, 224, 0] : Fin 4 → Nat) a + S1x64x16x256.size a ≤ S1x64x256x256.size a
  inb_S1x64x256x256_S1x64x16x256_0_0_240_0 : ∀ a, (![0, 0, 240, 0] : Fin 4 → Nat) a + S1x64x16x256.size a ≤ S1x64x256x256.size a
  shapeCasts_S64_S1x64 : S64.ShapeCasts S1x64
  broadcasts_S1x64_S16x64 : S1x64.Broadcasts S16x64
  reduces_S16x64_S16 : S16x64.Reduces [1] S16
  shapeCasts_S16_S1x16 : S16.ShapeCasts S1x16
  broadcasts_S1x16_S64x16 : S1x16.Broadcasts S64x16
  shapeCasts_S64_S64x1x1 : S64.ShapeCasts S64x1x1
  broadcasts_S64x1x1_S64x16x256 : S64x1x1.Broadcasts S64x16x256
  shapeCasts_S64x16x256_S1x64x16x256 : S64x16x256.ShapeCasts S1x64x16x256
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64x256x256.size a ≤ S16x64x256x256.size a
  hwx0_0 : ∀ i : grid0.Coords, EltTy.bits .f32 = 32 ∨ (Rect.block (s := S16x64x256x256) S1x64x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64x256x256.size a ≤ S16x64x256x256.size a
  hwx0_5 : ∀ i : grid0.Coords, EltTy.bits .f32 = 32 ∨ (Rect.block (s := S16x64x256x256) S1x64x256x256.size (cc0_transform_5 i) (hinb0_5 i)).WholeWords (EltTy.packing .f32)

variable [Facts₀]

abbrev win0_0 : Pipeline.Window sig grid0 :=
  Pipeline.Window.ofSpec (Memref.whole main_arg0) S1x64x256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64x256x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩
abbrev S16x16 : Shape := ⟨2, ![16, 16]⟩
abbrev S1x16 : Shape := ⟨2, ![1, 16]⟩
abbrev S1x64 : Shape := ⟨2, ![1, 64]⟩
abbrev S16x64x1x1 : Shape := ⟨4, ![16, 64, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x64, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S_, .f32⟩
  | .hbm, ⟨6, _⟩ => ⟨S16x64, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S_, .f32⟩
  | .hbm, ⟨11, _⟩ => ⟨S16x64, .f32⟩
  | .hbm, ⟨12, _⟩ => ⟨S16x16, .f32⟩
  | .hbm, ⟨13, _⟩ => ⟨S1x16, .f32⟩
  | .hbm, ⟨14, _⟩ => ⟨S16x16, .f32⟩
  | .hbm, ⟨15, _⟩ => ⟨S16x16, .f32⟩
  | .hbm, ⟨16, _⟩ => ⟨S_, .f32⟩
  | .hbm, ⟨17, _⟩ => ⟨S16x16, .f32⟩
  | .hbm, ⟨18, _⟩ => ⟨S16x16, .f32⟩
  | .hbm, ⟨19, _⟩ => ⟨S16x64, .f32⟩
  | .hbm, ⟨20, _⟩ => ⟨S1x64, .f32⟩
  | .hbm, ⟨21, _⟩ => ⟨S16x64, .f32⟩
  | .hbm, ⟨22, _⟩ => ⟨S16x64, .f32⟩
  | .hbm, ⟨23, _⟩ => ⟨S16x16, .f32⟩
  | .hbm, ⟨24, _⟩ => ⟨S1x16, .f32⟩
  | .hbm, ⟨25, _⟩ => ⟨S16x16, .f32⟩
  | .hbm, ⟨26, _⟩ => ⟨S16x16, .f32⟩
  | .hbm, ⟨27, _⟩ => ⟨S_, .f32⟩
  | .hbm, ⟨28, _⟩ => ⟨S16x16, .f32⟩
  | .hbm, ⟨29, _⟩ => ⟨S16x16, .f32⟩
  | .hbm, ⟨30, _⟩ => ⟨S16x64, .f32⟩
  | .hbm, ⟨31, _⟩ => ⟨S1x64, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S_, .f32⟩
  | .hbm, ⟨38, _⟩ => ⟨S16x64, .f32⟩
  | .hbm, ⟨39, _⟩ => ⟨S16x64, .f32⟩
  | .hbm, ⟨40, _⟩ => ⟨S_, .f32⟩
  | .hbm, ⟨41, _⟩ => ⟨S16x64, .f32⟩
  | .hbm, ⟨42, _⟩ => ⟨S16x64, .f32⟩
  | .hbm, ⟨43, _⟩ => ⟨S16x64x1x1, .f32⟩
  | .hbm, ⟨44, _⟩ => ⟨S16x64x256x256, .f32⟩
  | .hbm, ⟨45, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  reducesTo_S16x64x256x256_S16x64_d2_3 : S16x64x256x256.ReducesTo [2, 3] S16x64
  h_S_ : 0 < S_.numel
  bcast_S_S16x64 : S_.BroadcastsInDim S16x64 (![] : Fin 0 → Fin S16x64.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S16x64_S16x64x1x1_0_1 : S16x64.BroadcastsInDim S16x64x1x1 (![0, 1] : Fin 2 → Fin S16x64x1x1.rank)
  bcast_S16x64x1x1_S16x64x256x256_0_1_2_3 : S16x64x1x1.BroadcastsInDim S16x64x256x256 (![0, 1, 2, 3] : Fin 4 → Fin S16x64x256x256.rank)
  dot_S16x64_S16x64_S16x16_1_1_0_0_n_n_wf : DotDims.WF S16x64 S16x64 S16x16 [1] [1] [0] [0] [] []
  dot_S16x16_S64x16_S16x64_1_1_0_0_n_n_wf : DotDims.WF S16x16 S64x16 S16x64 [1] [1] [0] [0] [] []

variable [Facts₀]

def dot_S16x64_S16x64_S16x16_1_1_0_0_n_n : DotDims S16x64 S16x64 S16x16 where
  lhsContracting := [1]
  rhsContracting := [1]
  lhsNonContracting := [0]
  rhsNonContracting := [0]
  lhsBatch := []
  rhsBatch := []
  wf := dot_S16x64_S16x64_S16x16_1_1_0_0_n_n_wf
def dot_S16x16_S64x16_S16x64_1_1_0_0_n_n : DotDims S16x16 S64x16 S16x64 where
  lhsContracting := [1]
  rhsContracting := [1]
  lhsNonContracting := [0]
  rhsNonContracting := [0]
  lhsBatch := []
  rhsBatch := []
  wf := dot_S16x16_S64x16_S16x64_1_1_0_0_n_n_wf

class Facts : Prop extends Facts₀ where

variable [Facts]
-- ==== Proof.LibPlaneChunks.lean ====
/-
  Sums and maxima of a 256 x 256 plane taken sixteen rows at a time, and a few float words, over the extended reals.

  A plane is summed, and its maximum taken, in two ways: all at once, or in sixteen chunks of sixteen rows (chunk j holds
  rows 16 j .. 16 j + 15), each chunk reduced along its lanes, then along its rows, and the sixteen chunk results folded
  into a running value written out term by term, as a loop unrolled sixteen times writes it. Addition and max on the
  extended reals are commutative and associative, so the two groupings agree at every input, the infinities included:
  nothing here asks for finiteness. The maximum is carried by its universal property (a fold of max is below z iff its
  start and every element are), the sum by the bijection (chunk, row in chunk) <-> row. sum16 and max16_le_iff are the
  unrolled sixteen-term forms by themselves, for any sixteen values.

  The float words: +0.0, 1.0, 65536.0 and 2^-16 as the reals they denote; multiplying by the word of 2^-16 is dividing by
  the word of 65536 on every extended real; and the logistic spelt as the word of 1.0 over that word plus the exponential
  of the negation is the logistic.
-/
import Idealize.ShloMosaic.PureOps.Ideal

noncomputable section

namespace Cert.Pool

open Idealize.ShloMosaic

/-! ## Rows in chunks of sixteen -/

/-- Row hh of chunk j. -/
def row (j hh : Fin 16) : Fin 256 := ⟨16 * j.val + hh.val, by omega⟩

@[simp] theorem row_val (j hh : Fin 16) : (row j hh).val = 16 * j.val + hh.val := rfl

/-- (chunk, row in chunk) <-> row. -/
def rowEquiv : Fin 16 × Fin 16 ≃ Fin 256 where
  toFun p := row p.1 p.2
  invFun h := (⟨h.val / 16, by omega⟩, ⟨h.val % 16, by omega⟩)
  left_inv p := by
    rcases p with ⟨j, hh⟩
    refine Prod.ext (Fin.ext ?_) (Fin.ext ?_)
    · show (16 * j.val + hh.val) / 16 = j.val
      omega
    · show (16 * j.val + hh.val) % 16 = hh.val
      omega
  right_inv h := Fin.ext (by show 16 * (h.val / 16) + h.val % 16 = h.val; omega)

theorem row_surj (h : Fin 256) : ∃ j hh, row j hh = h :=
  ⟨(rowEquiv.symm h).1, (rowEquiv.symm h).2, rowEquiv.apply_symm_apply h⟩

/-! ## The sum -/

/-- The plane's sum. -/
def sumHW (X : Fin 256 → Fin 256 → EReal) : EReal := ∑ h, ∑ w, X h w

/-- One chunk's sum: lanes first, then the chunk's sixteen rows. -/
def chunkSum (X : Fin 256 → Fin 256 → EReal) (j : Fin 16) : EReal := ∑ hh : Fin 16, ∑ w : Fin 256, X (row j hh) w

/-- The chunks' sums add up to the plane's. -/
theorem sum_chunkSum (X : Fin 256 → Fin 256 → EReal) : ∑ j, chunkSum X j = sumHW X := by
  unfold chunkSum sumHW
  rw [← Fintype.sum_prod_type' (f := fun j hh => ∑ w, X (row j hh) w)]
  exact Equiv.sum_comp rowEquiv (fun h => ∑ w, X h w)

/-- A running sum from zero over sixteen addends, as a loop unrolled sixteen times writes it. -/
theorem sum16 (g : Fin 16 → EReal) :
    0 + g 0 + g 1 + g 2 + g 3 + g 4 + g 5 + g 6 + g 7 + g 8 + g 9 + g 10 + g 11 + g 12 + g 13 + g 14 + g 15 = ∑ j, g j := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_castSucc, Fin.sum_univ_zero]
  rfl

/-- The unrolled running sum of the chunks is the plane's sum. -/
theorem running_sum (X : Fin 256 → Fin 256 → EReal) :
    0 + chunkSum X 0 + chunkSum X 1 + chunkSum X 2 + chunkSum X 3 + chunkSum X 4 + chunkSum X 5 + chunkSum X 6 + chunkSum X 7
      + chunkSum X 8 + chunkSum X 9 + chunkSum X 10 + chunkSum X 11 + chunkSum X 12 + chunkSum X 13 + chunkSum X 14 + chunkSum X 15
      = sumHW X := by
  rw [sum16 (chunkSum X), sum_chunkSum]

/-! ## The maximum -/

/-- The plane's maximum from b (the fold of max over every entry). -/
def maxHW (b : EReal) (X : Fin 256 → Fin 256 → EReal) : EReal :=
  (Finset.univ : Finset (Fin 256 × Fin 256)).fold max b (fun p => X p.1 p.2)

/-- One chunk's maximum: lanes first, then the chunk's sixteen rows, each fold from b. -/
def chunkMax (b : EReal) (X : Fin 256 → Fin 256 → EReal) (j : Fin 16) : EReal :=
  (Finset.univ : Finset (Fin 16)).fold max b fun hh => (Finset.univ : Finset (Fin 256)).fold max b fun w => X (row j hh) w

theorem maxHW_le_iff (b : EReal) (X : Fin 256 → Fin 256 → EReal) (z : EReal) :
    maxHW b X ≤ z ↔ b ≤ z ∧ ∀ h w, X h w ≤ z := by
  unfold maxHW
  rw [Finset.fold_max_le]
  exact and_congr Iff.rfl ⟨fun H h w => H (h, w) (Finset.mem_univ _), fun H p _ => H p.1 p.2⟩

theorem chunkMax_le_iff (b : EReal) (X : Fin 256 → Fin 256 → EReal) (j : Fin 16) (z : EReal) :
    chunkMax b X j ≤ z ↔ b ≤ z ∧ ∀ hh w, X (row j hh) w ≤ z := by
  unfold chunkMax
  rw [Finset.fold_max_le]
  constructor
  · rintro ⟨hb, H⟩
    exact ⟨hb, fun hh w => ((Finset.fold_max_le _).1 (H hh (Finset.mem_univ _))).2 w (Finset.mem_univ _)⟩
  · rintro ⟨hb, H⟩
    exact ⟨hb, fun hh _ => (Finset.fold_max_le _).2 ⟨hb, fun w _ => H hh w⟩⟩

/-- A running maximum from b over sixteen values, as a loop unrolled sixteen times writes it, is below z iff b and
    every value are. -/
theorem max16_le_iff (b : EReal) (g : Fin 16 → EReal) (z : EReal) :
    max (max (max (max (max (max (max (max (max (max (max (max (max (max (max (max b (g 0)) (g 1)) (g 2)) (g 3)) (g 4)) (g 5)) (g 6)) (g 7))
      (g 8)) (g 9)) (g 10)) (g 11)) (g 12)) (g 13)) (g 14)) (g 15) ≤ z ↔ b ≤ z ∧ ∀ j, g j ≤ z := by
  simp only [max_le_iff]
  constructor
  · rintro ⟨⟨⟨⟨⟨⟨⟨⟨⟨⟨⟨⟨⟨⟨⟨⟨hb, h0⟩, h1⟩, h2⟩, h3⟩, h4⟩, h5⟩, h6⟩, h7⟩, h8⟩, h9⟩, h10⟩, h11⟩, h12⟩, h13⟩, h14⟩, h15⟩
    refine ⟨hb, fun j => ?_⟩
    fin_cases j
    exacts [h0, h1, h2, h3, h4, h5, h6, h7, h8, h9, h10, h11, h12, h13, h14, h15]
  · rintro ⟨hb, H⟩
    exact ⟨⟨⟨⟨⟨⟨⟨⟨⟨⟨⟨⟨⟨⟨⟨⟨hb, H 0⟩, H 1⟩, H 2⟩, H 3⟩, H 4⟩, H 5⟩, H 6⟩, H 7⟩, H 8⟩, H 9⟩, H 10⟩, H 11⟩, H 12⟩, H 13⟩, H 14⟩, H 15⟩

/-- The unrolled running maximum of the chunks is the plane's maximum. -/
theorem running_max (b : EReal) (X : Fin 256 → Fin 256 → EReal) :
    max (max (max (max (max (max (max (max (max (max (max (max (max (max (max (max b (chunkMax b X 0)) (chunkMax b X 1)) (chunkMax b X 2))
      (chunkMax b X 3)) (chunkMax b X 4)) (chunkMax b X 5)) (chunkMax b X 6)) (chunkMax b X 7)) (chunkMax b X 8)) (chunkMax b X 9))
      (chunkMax b X 10)) (chunkMax b X 11)) (chunkMax b X 12)) (chunkMax b X 13)) (chunkMax b X 14)) (chunkMax b X 15)
      = maxHW b X := by
  refine eq_of_forall_ge_iff fun z => ?_
  rw [max16_le_iff b (chunkMax b X) z, maxHW_le_iff]
  constructor
  · rintro ⟨hb, H⟩
    refine ⟨hb, fun h w => ?_⟩
    obtain ⟨j, hh, rfl⟩ := row_surj h
    exact ((chunkMax_le_iff b X j z).1 (H j)).2 hh w
  · rintro ⟨hb, H⟩
    exact ⟨hb, fun j => (chunkMax_le_iff b X j z).2 ⟨hb, fun hh w => H _ w⟩⟩

/-! ## The float words -/

/-- The word of +0.0 denotes 0. -/
theorem ofBits_zero : Ideal.ofBits .f32 0x00000000#32 = 0 := by
  simp [Ideal.ofBits, Ideal.ieee]

/-- The word of 65536.0 denotes the real 65536. -/
theorem ofBits_65536 : Ideal.ofBits .f32 0x47800000#32 = ((65536 : ℝ) : EReal) := by
  simp [Ideal.ofBits, Ideal.ieee, -EReal.coe_mul]; norm_num

/-- The word of 2^-16 denotes the real 1 / 65536: a power of two, exactly. -/
theorem ofBits_inv_65536 : Ideal.ofBits .f32 0x37800000#32 = ((1 / 65536 : ℝ) : EReal) := by
  simp [Ideal.ofBits, Ideal.ieee, -EReal.coe_mul]; norm_num

/-- The mean two ways: the product with 2^-16 is the quotient by 65536, on every extended real. -/
theorem mul_inv_eq_div (s : EReal) :
    s * Ideal.ofBits .f32 0x37800000#32 = Ideal.div s (Ideal.ofBits .f32 0x47800000#32) := by
  rw [ofBits_inv_65536, ofBits_65536, Ideal.div_coe (by norm_num : (65536 : ℝ) ≠ 0)]

/-- The word of 1.0 denotes 1. -/
theorem ofBits_one : Ideal.ofBits .f32 0x3F800000#32 = 1 := by
  simp [Ideal.ofBits, Ideal.ieee, -EReal.coe_mul]; norm_num

/-- The logistic spelt out with a quotient, an exponential and a negation, over the word of 1.0, is the logistic. -/
theorem div_one_add_exp_neg (z : EReal) :
    Ideal.div (Ideal.ofBits .f32 0x3F800000#32) (Ideal.ofBits .f32 0x3F800000#32 + Ideal.exp (-z)) = Ideal.logistic z := by
  rw [ofBits_one]; rfl

end Cert.Pool

end
-- ==== Proof.PoolAlgebra.lean ====
/-
  The pooled gate and the specification, over abstract index types and the extended reals: no program in sight.

  A two-layer perceptron takes a pooled vector of 64 numbers to 64 numbers through 16 rectified hidden units. The gate of
  an image's channel is the logistic of the perceptron at the channels' means plus the perceptron at the channels'
  maxima, the mean being the plane's sum divided by the pixel count and the maximum the plane's fold of max from minus
  infinity. The specification multiplies every entry of an image's channel by that channel's gate.
-/
import proofs.«152617_j31447750541614_2_alg».proof.Proof.LibPlaneChunks
import Idealize.ShloMosaic.Lib.ValueIdx

noncomputable section

namespace Cert.Pool

open Idealize.ShloMosaic Idealize.ShloMosaic.ValueIdx

/-! ## The perceptron and the gate -/

/-- The hidden layer at unit r: the rectified affine image of the pooled vector (z is the rectifier's floor). -/
def hidden (z : EReal) (v : Fin 64 → EReal) (W1 : Fin 16 → Fin 64 → EReal) (B1 : Fin 16 → EReal) (r : Fin 16) : EReal :=
  max ((∑ k, v k * W1 r k) + B1 r) z

/-- The perceptron's output at channel c. -/
def mlp (z : EReal) (v : Fin 64 → EReal) (W1 : Fin 16 → Fin 64 → EReal) (B1 : Fin 16 → EReal) (W2 : Fin 64 → Fin 16 → EReal)
    (B2 : Fin 64 → EReal) (c : Fin 64) : EReal :=
  (∑ r, hidden z v W1 B1 r * W2 c r) + B2 c

/-- The gate at channel c of an image X (channel, row, lane): the logistic of the perceptron at the channels' means
    plus the perceptron at the channels' maxima. The three float words are the rectifier's zero, the maximum's
    minus infinity and the pixel count 65536, as both programs spell them. -/
def gate (X : Fin 64 → Fin 256 → Fin 256 → EReal) (W1 : Fin 16 → Fin 64 → EReal) (B1 : Fin 16 → EReal)
    (W2 : Fin 64 → Fin 16 → EReal) (B2 : Fin 64 → EReal) (c : Fin 64) : EReal :=
  Ideal.logistic
    (mlp (Ideal.ofBits .f32 0x00000000#32) (fun k => Ideal.div (sumHW (X k)) (Ideal.ofBits .f32 0x47800000#32)) W1 B1 W2 B2 c
      + mlp (Ideal.ofBits .f32 0x00000000#32) (fun k => maxHW (Ideal.ofBits .f32 0xFF800000#32) (X k)) W1 B1 W2 B2 c)

/-! ## The whole result -/

/-- The result at (image, channel, row, lane): the input there times the gate of that image's channel. The five arrays
    are the input batch (16 images of 64 channels of 256 x 256), the first layer's weights (16 x 64) and bias (16), the
    second layer's weights (64 x 16) and bias (64). -/
def scaledAt (a0 : (⟨4, ![16, 64, 256, 256]⟩ : Shape).Idx → EReal) (a1 : (⟨2, ![16, 64]⟩ : Shape).Idx → EReal)
    (a2 : (⟨1, ![16]⟩ : Shape).Idx → EReal) (a3 : (⟨2, ![64, 16]⟩ : Shape).Idx → EReal) (a4 : (⟨1, ![64]⟩ : Shape).Idx → EReal)
    (b : Fin 16) (c : Fin 64) (h w : Fin 256) : EReal :=
  a0 (ix4 b c h w) * gate (fun k h' w' => a0 (ix4 b k h' w')) (fun r k => a1 (ix2 r k)) (fun r => a2 (ix1 r))
    (fun c r => a3 (ix2 c r)) (fun c => a4 (ix1 c)) c

/-- The result array, index by index. -/
def scaled (a0 : (⟨4, ![16, 64, 256, 256]⟩ : Shape).Idx → EReal) (a1 : (⟨2, ![16, 64]⟩ : Shape).Idx → EReal)
    (a2 : (⟨1, ![16]⟩ : Shape).Idx → EReal) (a3 : (⟨2, ![64, 16]⟩ : Shape).Idx → EReal) (a4 : (⟨1, ![64]⟩ : Shape).Idx → EReal) :
    (⟨4, ![16, 64, 256, 256]⟩ : Shape).Idx → EReal :=
  fun i => scaledAt a0 a1 a2 a3 a4 ⟨(i 0).val, (i 0).isLt⟩ ⟨(i 1).val, (i 1).isLt⟩ ⟨(i 2).val, (i 2).isLt⟩ ⟨(i 3).val, (i 3).isLt⟩

theorem scaled_ix4 (a0 : (⟨4, ![16, 64, 256, 256]⟩ : Shape).Idx → EReal) (a1 : (⟨2, ![16, 64]⟩ : Shape).Idx → EReal)
    (a2 : (⟨1, ![16]⟩ : Shape).Idx → EReal) (a3 : (⟨2, ![64, 16]⟩ : Shape).Idx → EReal) (a4 : (⟨1, ![64]⟩ : Shape).Idx → EReal)
    (b : Fin 16) (c : Fin 64) (h w : Fin 256) :
    scaled a0 a1 a2 a3 a4 (ix4 b c h w) = scaledAt a0 a1 a2 a3 a4 b c h w := rfl

end Cert.Pool

end
-- ==== Proof.KernelGate.lean ====
/-
  The kernel body's arithmetic, read one channel at a time at the ideal instance.

  A grid point holds one image: 64 channels of 256 rows by 256 lanes. The body walks the rows sixteen at a time; for
  each chunk it adds the lanes, then the rows, into a running per-channel sum, and likewise folds the lanes' and rows'
  maxima into a running per-channel maximum. The mean is the sum times the word of 2^-16. Two small dense layers, written
  as broadcast, multiply and add along the last axis, take the mean vector and the maximum vector to 64 numbers each; the
  gate is the logistic of their sum. Each chunk of the image is then multiplied by the gate of its channel and stored.

  Every lemma here reads one named value of the body at an index built from literal coordinates: a layout operation by the
  index it reads its operand at, a reduction along one axis as the sum (or the fold of max) over that axis, a pointwise
  operation by itself. No lemma opens the extended reals' algebra; that is the business of the module of the pooled
  gate's algebra, whose definitions the final statements are written in.
-/
import proofs.«152617_j31447750541614_2_alg».proof.Proof.Gen.KernelIdeal.Frame
import proofs.«152617_j31447750541614_2_alg».proof.Proof.PoolAlgebra
import Idealize.ShloMosaic.Lib.Pipeline.Value
import Idealize.ShloMosaic.Lib.ValueIdx
import Idealize.ShloMosaic.PureOps.Ideal.Laws

noncomputable section

namespace Cert.KernelIdeal.GateValue

open Cert.KernelIdeal Cert.KernelIdeal.Gen Idealize.ShloMosaic Idealize.ShloMosaic.TcCoe Idealize.SL.Sem
open Idealize.ShloMosaic.ValueIdx

/- The side proofs a printed reduction carries (its format is a float format; its accumulator word is the operation's
   neutral word), as variables of the types the printed proofs have: a lemma stated over them rewrites the printed term
   whatever proof it holds. -/
variable (hφ hφ' : FTy.f32 = FTy.f32 ∨ FTy.f32 = FTy.bf16)
  (hz hz' : (0x00000000#32 : BitVec 32) = 0x00000000#32) (hn hn' : (0xFF800000#32 : BitVec 32) = 0xFF800000#32)

/-! ## Layout operations and one-axis reductions, read at an index -/

/-- A chunk with its leading unit axis dropped, at (channel, row, lane). -/
theorem chunk_cast (v : Vec Ideal S1x64x16x256 .f32) (k : Fin 64) (hh : Fin 16) (w : Fin 256) :
    shapeCast S64x16x256 v shapeCasts_S1x64x16x256_S64x16x256 (ix3 k hh w) = v (ix4 0 k hh w) :=
  (shapeCast_dropUnit_apply ![64, 16, 256] v _ (ix3 k hh w)).trans
    (congrArg v (funext fun a => by match a with | ⟨0, _⟩ => rfl | ⟨1, _⟩ => rfl | ⟨2, _⟩ => rfl | ⟨3, _⟩ => rfl))

/-- The lanes of a row added up. -/
theorem lanes_add (x : FVec Ideal S64x16x256 .f32) (k : Fin 64) (hh : Fin 16) :
    multiReduction .add [2] S64x16 x 0x00000000#32 reduces_S64x16x256_S64x16 hφ hz (ix2 k hh)
      = ∑ w : Fin 256, x (ix3 k hh w) :=
  (Ideal.multiReduction_add_single x 0x00000000#32 reduces_S64x16x256_S64x16 hφ hz (ix2 k hh)).trans
    (Finset.sum_congr rfl fun w _ => congrArg x (funext fun a => Fin.ext (by
      match a with | ⟨0, _⟩ => rfl | ⟨1, _⟩ => rfl | ⟨2, _⟩ => rfl)))

/-- The sixteen entries of a channel's row of a 64 x 16 table added up. -/
theorem rows_add (x : FVec Ideal S64x16 .f32) (k : Fin 64) :
    multiReduction .add [1] S64 x 0x00000000#32 reduces_S64x16_S64 hφ hz (ix1 k)
      = ∑ hh : Fin 16, x (ix2 k hh) :=
  (Ideal.multiReduction_add_single x 0x00000000#32 reduces_S64x16_S64 hφ hz (ix1 k)).trans
    (Finset.sum_congr rfl fun hh _ => congrArg x (funext fun a => Fin.ext (by
      match a with | ⟨0, _⟩ => rfl | ⟨1, _⟩ => rfl)))

/-- The sixty-four entries of a unit's row of a 16 x 64 table added up. -/
theorem cols_add (x : FVec Ideal S16x64 .f32) (r : Fin 16) :
    multiReduction .add [1] S16 x 0x00000000#32 reduces_S16x64_S16 hφ hz (ix1 r)
      = ∑ k : Fin 64, x (ix2 r k) :=
  (Ideal.multiReduction_add_single x 0x00000000#32 reduces_S16x64_S16 hφ hz (ix1 r)).trans
    (Finset.sum_congr rfl fun k _ => congrArg x (funext fun a => Fin.ext (by
      match a with | ⟨0, _⟩ => rfl | ⟨1, _⟩ => rfl)))

/-- The maximum over the lanes of a row, from the word of minus infinity. -/
theorem lanes_max (x : FVec Ideal S64x16x256 .f32) (k : Fin 64) (hh : Fin 16) :
    multiReduction .maximumf [2] S64x16 x 0xFF800000#32 reduces_S64x16x256_S64x16 hφ hn (ix2 k hh)
      = (Finset.univ : Finset (Fin 256)).fold max (Ideal.ofBits .f32 0xFF800000#32) fun w => x (ix3 k hh w) :=
  (Ideal.multiReduction_maximumf_single x 0xFF800000#32 reduces_S64x16x256_S64x16 hφ hn (ix2 k hh)).trans
    (congrArg (Finset.fold max (Ideal.ofBits .f32 0xFF800000#32) · Finset.univ) (funext fun w => congrArg x (funext fun a => Fin.ext (by
      match a with | ⟨0, _⟩ => rfl | ⟨1, _⟩ => rfl | ⟨2, _⟩ => rfl))))

/-- The maximum over the sixteen entries of a channel's row of a 64 x 16 table. -/
theorem rows_max (x : FVec Ideal S64x16 .f32) (k : Fin 64) :
    multiReduction .maximumf [1] S64 x 0xFF800000#32 reduces_S64x16_S64 hφ hn (ix1 k)
      = (Finset.univ : Finset (Fin 16)).fold max (Ideal.ofBits .f32 0xFF800000#32) fun hh => x (ix2 k hh) :=
  (Ideal.multiReduction_maximumf_single x 0xFF800000#32 reduces_S64x16_S64 hφ hn (ix1 k)).trans
    (congrArg (Finset.fold max (Ideal.ofBits .f32 0xFF800000#32) · Finset.univ) (funext fun hh => congrArg x (funext fun a => Fin.ext (by
      match a with | ⟨0, _⟩ => rfl | ⟨1, _⟩ => rfl))))

/-- A per-channel vector given two trailing unit axes and broadcast over rows and lanes, at (channel, row, lane). -/
theorem gate_bcast (y : FVec Ideal S64 .f32) (k : Fin 64) (hh : Fin 16) (w : Fin 256) :
    broadcastTo S64x16x256 (shapeCast S64x1x1 y shapeCasts_S64_S64x1x1) broadcasts_S64x1x1_S64x16x256 (ix3 k hh w) = y (ix1 k) := by
  refine (broadcastTo_apply _ broadcasts_S64x1x1_S64x16x256 (ix3 k hh w) (ix3 k 0 0) ?_).trans ?_
  · intro a
    match a with
    | ⟨0, _⟩ => rfl
    | ⟨1, _⟩ => rfl
    | ⟨2, _⟩ => rfl
  · refine shapeCast_apply y shapeCasts_S64_S64x1x1 (ix3 k 0 0) (ix1 k) ?_
    rw [Shape.rowMajor_val_one, Shape.rowMajor_val_three]
    show k.val = (k.val * 1 + 0) * 1 + 0
    omega

/-- A length-64 vector as one row, broadcast over sixteen rows, at (row, entry). -/
theorem row_bcast64 (y : FVec Ideal S64 .f32) (r : Fin 16) (k : Fin 64) :
    broadcastTo S16x64 (shapeCast S1x64 y shapeCasts_S64_S1x64) broadcasts_S1x64_S16x64 (ix2 r k) = y (ix1 k) := by
  refine (broadcastTo_apply _ broadcasts_S1x64_S16x64 (ix2 r k) (ix2 0 k) ?_).trans ?_
  · intro a
    match a with
    | ⟨0, _⟩ => rfl
    | ⟨1, _⟩ => rfl
  · refine shapeCast_apply y shapeCasts_S64_S1x64 (ix2 0 k) (ix1 k) ?_
    rw [Shape.rowMajor_val_one, Shape.rowMajor_val_two]
    show k.val = 0 * 64 + k.val
    omega

/-- A length-16 vector as one row, broadcast over sixty-four rows, at (row, entry). -/
theorem row_bcast16 (y : FVec Ideal S16 .f32) (c : Fin 64) (r : Fin 16) :
    broadcastTo S64x16 (shapeCast S1x16 y shapeCasts_S16_S1x16) broadcasts_S1x16_S64x16 (ix2 c r) = y (ix1 r) := by
  refine (broadcastTo_apply _ broadcasts_S1x16_S64x16 (ix2 c r) (ix2 0 r) ?_).trans ?_
  · intro a
    match a with
    | ⟨0, _⟩ => rfl
    | ⟨1, _⟩ => rfl
  · refine shapeCast_apply y shapeCasts_S16_S1x16 (ix2 0 r) (ix1 r) ?_
    rw [Shape.rowMajor_val_one, Shape.rowMajor_val_two]
    show r.val = 0 * 16 + r.val
    omega

/-! ## One chunk's sum and maximum -/

/-- A chunk's sum at channel k: lanes, then rows. -/
def CS (v : Vec Ideal S1x64x16x256 .f32) (k : Fin 64) : EReal := ∑ hh : Fin 16, ∑ w : Fin 256, v (ix4 0 k hh w)

/-- A chunk's maximum at channel k: lanes, then rows, each fold from the word of minus infinity. -/
def CM (v : Vec Ideal S1x64x16x256 .f32) (k : Fin 64) : EReal :=
  (Finset.univ : Finset (Fin 16)).fold max (Ideal.ofBits .f32 0xFF800000#32) fun hh =>
    (Finset.univ : Finset (Fin 256)).fold max (Ideal.ofBits .f32 0xFF800000#32) fun w => v (ix4 0 k hh w)

theorem chunk_sum (v : Vec Ideal S1x64x16x256 .f32) (k : Fin 64) :
    multiReduction (F := Ideal) .add [1] S64 (multiReduction .add [2] S64x16 (shapeCast S64x16x256 v shapeCasts_S1x64x16x256_S64x16x256)
      0x00000000#32 reduces_S64x16x256_S64x16 hφ hz) 0x00000000#32 reduces_S64x16_S64 hφ' hz' (ix1 k) = CS v k :=
  (rows_add hφ' hz' _ k).trans (Finset.sum_congr rfl fun hh _ => (lanes_add hφ hz _ k hh).trans (Finset.sum_congr rfl fun w _ => chunk_cast v k hh w))

theorem lanes_sum (v : Vec Ideal S1x64x16x256 .f32) (k : Fin 64) (hh : Fin 16) :
    multiReduction (F := Ideal) .add [2] S64x16 (shapeCast S64x16x256 v shapeCasts_S1x64x16x256_S64x16x256)
      0x00000000#32 reduces_S64x16x256_S64x16 hφ hz (ix2 k hh) = ∑ w : Fin 256, v (ix4 0 k hh w) :=
  (lanes_add hφ hz _ k hh).trans (Finset.sum_congr rfl fun w _ => chunk_cast v k hh w)

theorem lanes_maximum (v : Vec Ideal S1x64x16x256 .f32) (k : Fin 64) (hh : Fin 16) :
    multiReduction (F := Ideal) .maximumf [2] S64x16 (shapeCast S64x16x256 v shapeCasts_S1x64x16x256_S64x16x256)
      0xFF800000#32 reduces_S64x16x256_S64x16 hφ hn (ix2 k hh)
      = (Finset.univ : Finset (Fin 256)).fold max (Ideal.ofBits .f32 0xFF800000#32) fun w => v (ix4 0 k hh w) :=
  (lanes_max hφ hn _ k hh).trans (Finset.fold_congr fun w _ => chunk_cast v k hh w)

theorem chunk_max (v : Vec Ideal S1x64x16x256 .f32) (k : Fin 64) :
    multiReduction (F := Ideal) .maximumf [1] S64 (multiReduction .maximumf [2] S64x16 (shapeCast S64x16x256 v shapeCasts_S1x64x16x256_S64x16x256)
      0xFF800000#32 reduces_S64x16x256_S64x16 hφ hn) 0xFF800000#32 reduces_S64x16_S64 hφ' hn' (ix1 k) = CM v k :=
  (rows_max hφ' hn' _ k).trans (Finset.fold_congr fun hh _ => lanes_maximum hφ hn v k hh)

/-- The maximum of a (channel, row, lane) table over lanes, then rows. -/
theorem table_max (x : FVec Ideal S64x16x256 .f32) (k : Fin 64) :
    multiReduction (F := Ideal) .maximumf [1] S64 (multiReduction .maximumf [2] S64x16 x
      0xFF800000#32 reduces_S64x16x256_S64x16 hφ hn) 0xFF800000#32 reduces_S64x16_S64 hφ' hn' (ix1 k)
      = (Finset.univ : Finset (Fin 16)).fold max (Ideal.ofBits .f32 0xFF800000#32) fun hh =>
          (Finset.univ : Finset (Fin 256)).fold max (Ideal.ofBits .f32 0xFF800000#32) fun w => x (ix3 k hh w) :=
  (rows_max hφ' hn' _ k).trans (Finset.fold_congr fun hh _ => lanes_max hφ hn x k hh)

/-! ## The running sum, payload by payload -/

theorem pay8_apply (a b c : Vec Ideal S1x64x16x256 .f32) (k : Fin 64) :
    k0_pay8 a b c (ix1 k) = Ideal.ofBits .f32 0x00000000#32 + CS a k + CS b k + CS c k := by
  unfold k0_pay8 k0_pay4 k0_pay5 k0_pay7
  simp only [addf_apply, broadcast_apply]
  rw [chunk_sum, chunk_sum, chunk_sum]
  rfl

theorem pay13_apply (acc : FVec Ideal S64 .f32) (a b c : Vec Ideal S1x64x16x256 .f32) (k : Fin 64) :
    k0_pay13 acc a b c (ix1 k) = acc (ix1 k) + CS a k + CS b k + CS c k := by
  unfold k0_pay13 k0_pay10 k0_pay11 k0_pay12
  simp only [addf_apply]
  rw [chunk_sum, chunk_sum, chunk_sum]

theorem pay16_apply (v : Vec Ideal S1x64x16x256 .f32) (k : Fin 64) (hh : Fin 16) :
    k0_pay16 v (ix2 k hh) = ∑ w : Fin 256, v (ix4 0 k hh w) := by
  unfold k0_pay16 k0_pay15
  exact lanes_sum _ _ v k hh

theorem pay20_apply (acc : FVec Ideal S64 .f32) (v56 : FVec Ideal S64x16 .f32) (a b c : Vec Ideal S1x64x16x256 .f32) (k : Fin 64) :
    k0_pay20 acc v56 a b c (ix1 k) = acc (ix1 k) + (∑ hh : Fin 16, v56 (ix2 k hh)) + CS a k + CS b k + CS c k := by
  unfold k0_pay20 k0_pay17 k0_pay18 k0_pay19
  simp only [addf_apply]
  rw [chunk_sum, chunk_sum, chunk_sum, rows_add]

theorem pay26_apply (acc : FVec Ideal S64 .f32) (a b c d : Vec Ideal S1x64x16x256 .f32) (k : Fin 64) :
    k0_pay26 acc a b c d (ix1 k) = acc (ix1 k) + CS a k + CS b k + CS c k + CS d k := by
  unfold k0_pay26 k0_pay22 k0_pay23 k0_pay24 k0_pay25
  simp only [addf_apply]
  rw [chunk_sum, chunk_sum, chunk_sum, chunk_sum]

/-! ## The running maximum, payload by payload -/

theorem pay6_apply (a b : Vec Ideal S1x64x16x256 .f32) (k : Fin 64) :
    k0_pay6 a b (ix1 k) = max (max (Ideal.ofBits .f32 0xFF800000#32) (CM a k)) (CM b k) := by
  unfold k0_pay6 k0_pay4 k0_pay5
  simp only [maximumf_apply, broadcast_apply]
  rw [chunk_max, chunk_max]
  rfl

theorem pay9_apply (v : Vec Ideal S1x64x16x256 .f32) (k : Fin 64) (hh : Fin 16) :
    k0_pay9 v (ix2 k hh) = (Finset.univ : Finset (Fin 256)).fold max (Ideal.ofBits .f32 0xFF800000#32) fun w => v (ix4 0 k hh w) := by
  unfold k0_pay9 k0_pay7
  exact lanes_maximum _ _ v k hh

theorem pay14_apply (acc : FVec Ideal S64 .f32) (v27 : FVec Ideal S64x16 .f32) (a b c : Vec Ideal S1x64x16x256 .f32) (k : Fin 64) :
    k0_pay14 acc v27 a b c (ix1 k)
      = max (max (max (max (acc (ix1 k)) ((Finset.univ : Finset (Fin 16)).fold max (Ideal.ofBits .f32 0xFF800000#32) fun hh => v27 (ix2 k hh)))
          (CM a k)) (CM b k)) (CM c k) := by
  unfold k0_pay14 k0_pay10 k0_pay11 k0_pay12
  simp only [maximumf_apply]
  rw [chunk_max, chunk_max, chunk_max, rows_max]

theorem pay21_apply (acc : FVec Ideal S64 .f32) (v55 : FVec Ideal S64x16x256 .f32) (a b c : Vec Ideal S1x64x16x256 .f32) (k : Fin 64) :
    k0_pay21 acc v55 a b c (ix1 k)
      = max (max (max (max (acc (ix1 k)) ((Finset.univ : Finset (Fin 16)).fold max (Ideal.ofBits .f32 0xFF800000#32) fun hh =>
            (Finset.univ : Finset (Fin 256)).fold max (Ideal.ofBits .f32 0xFF800000#32) fun w => v55 (ix3 k hh w)))
          (CM a k)) (CM b k)) (CM c k) := by
  unfold k0_pay21 k0_pay17 k0_pay18 k0_pay19
  simp only [maximumf_apply]
  rw [chunk_max, chunk_max, chunk_max, table_max]

theorem pay27_apply (acc : FVec Ideal S64 .f32) (a b c d : Vec Ideal S1x64x16x256 .f32) (k : Fin 64) :
    k0_pay27 acc a b c d (ix1 k) = max (max (max (max (acc (ix1 k)) (CM a k)) (CM b k)) (CM c k)) (CM d k) := by
  unfold k0_pay27 k0_pay22 k0_pay23 k0_pay24 k0_pay25
  simp only [maximumf_apply]
  rw [chunk_max, chunk_max, chunk_max, chunk_max]

/-! ## The two dense layers and the logistic -/

/-- The hidden layer, from a pooled vector v: broadcast over the sixteen units, multiply by the first weights, add
    along the channels, add the bias, rectify. -/
theorem hidden_apply (v : FVec Ideal S64 .f32) (v0 : Vec Ideal S16x64 .f32) (v1 : Vec Ideal S16 .f32) (r : Fin 16) :
    maximumf (F := Ideal) (addf (multiReduction .add [1] S16 (mulf (broadcastTo S16x64 (shapeCast S1x64 v shapeCasts_S64_S1x64) broadcasts_S1x64_S16x64) v0)
        0x00000000#32 reduces_S16x64_S16 hφ hz) v1) (broadcast S16 (Scalar.ofBits .f32 0x00000000#32)) (ix1 r)
      = Pool.hidden (Ideal.ofBits .f32 0x00000000#32) (fun k => v (ix1 k)) (fun r k => v0 (ix2 r k)) (fun r => v1 (ix1 r)) r := by
  show max (multiReduction (F := Ideal) .add [1] S16 (mulf (broadcastTo S16x64 (shapeCast S1x64 v shapeCasts_S64_S1x64) broadcasts_S1x64_S16x64) v0)
      0x00000000#32 reduces_S16x64_S16 hφ hz (ix1 r) + v1 (ix1 r)) (Ideal.ofBits .f32 0x00000000#32) = _
  rw [cols_add]
  unfold Pool.hidden
  refine congrArg (fun s => max (s + v1 (ix1 r)) (Ideal.ofBits .f32 0x00000000#32)) (Finset.sum_congr rfl fun k _ => ?_)
  show broadcastTo S16x64 (shapeCast S1x64 v shapeCasts_S64_S1x64) broadcasts_S1x64_S16x64 (ix2 r k) * v0 (ix2 r k) = _
  rw [row_bcast64]

/-- The output layer, from a hidden vector H: broadcast over the sixty-four channels, multiply by the second weights,
    add along the units, add the bias. -/
theorem out_apply (H : FVec Ideal S16 .f32) (v2 : Vec Ideal S64x16 .f32) (v3 : Vec Ideal S64 .f32) (c : Fin 64) :
    addf (F := Ideal) (multiReduction .add [1] S64 (mulf (broadcastTo S64x16 (shapeCast S1x16 H shapeCasts_S16_S1x16) broadcasts_S1x16_S64x16) v2)
        0x00000000#32 reduces_S64x16_S64 hφ hz) v3 (ix1 c)
      = (∑ r : Fin 16, H (ix1 r) * v2 (ix2 c r)) + v3 (ix1 c) := by
  show multiReduction (F := Ideal) .add [1] S64 (mulf (broadcastTo S64x16 (shapeCast S1x16 H shapeCasts_S16_S1x16) broadcasts_S1x16_S64x16) v2)
      0x00000000#32 reduces_S64x16_S64 hφ hz (ix1 c) + v3 (ix1 c) = _
  rw [rows_add]
  refine congrArg (· + v3 (ix1 c)) (Finset.sum_congr rfl fun r _ => ?_)
  show broadcastTo S64x16 (shapeCast S1x16 H shapeCasts_S16_S1x16) broadcasts_S1x16_S64x16 (ix2 c r) * v2 (ix2 c r) = _
  rw [row_bcast16]

theorem pay30_apply (v0 : Vec Ideal S16x64 .f32) (v1 : Vec Ideal S16 .f32) (v2 : Vec Ideal S64x16 .f32) (v3 : Vec Ideal S64 .f32)
    (acc : FVec Ideal S64 .f32) (a b : Vec Ideal S1x64x16x256 .f32) (c : Fin 64) :
    k0_pay30 v0 v1 v2 v3 acc a b (ix1 c)
      = Pool.mlp (Ideal.ofBits .f32 0x00000000#32) (fun k => (acc (ix1 k) + CS a k + CS b k) * Ideal.ofBits .f32 0x37800000#32)
          (fun r k => v0 (ix2 r k)) (fun r => v1 (ix1 r)) (fun c r => v2 (ix2 c r)) (fun c => v3 (ix1 c)) c := by
  unfold k0_pay30 k0_pay28 k0_pay29
  refine (out_apply _ _ _ v2 v3 c).trans ?_
  unfold Pool.mlp
  refine congrArg (· + v3 (ix1 c)) (Finset.sum_congr rfl fun r _ => congrArg (· * v2 (ix2 c r)) ?_)
  refine (hidden_apply _ _ _ v0 v1 r).trans ?_
  refine congrArg (fun V => Pool.hidden (Ideal.ofBits .f32 0x00000000#32) V (fun r k => v0 (ix2 r k)) (fun r => v1 (ix1 r)) r) (funext fun k => ?_)
  simp only [mulf_apply, addf_apply, broadcast_apply]
  rw [chunk_sum, chunk_sum]
  rfl

/-- The hidden layer of the maxima, already broadcast over the channels for the output layer's product. -/
theorem pay31_apply (v0 : Vec Ideal S16x64 .f32) (v1 : Vec Ideal S16 .f32) (acc : FVec Ideal S64 .f32) (a b : Vec Ideal S1x64x16x256 .f32)
    (c : Fin 64) (r : Fin 16) :
    k0_pay31 v0 v1 acc a b (ix2 c r)
      = Pool.hidden (Ideal.ofBits .f32 0x00000000#32) (fun k => max (max (acc (ix1 k)) (CM a k)) (CM b k))
          (fun r k => v0 (ix2 r k)) (fun r => v1 (ix1 r)) r := by
  unfold k0_pay31 k0_pay28 k0_pay29
  refine (row_bcast16 _ c r).trans ?_
  refine (hidden_apply _ _ _ v0 v1 r).trans ?_
  refine congrArg (fun V => Pool.hidden (Ideal.ofBits .f32 0x00000000#32) V (fun r k => v0 (ix2 r k)) (fun r => v1 (ix1 r)) r) (funext fun k => ?_)
  simp only [maximumf_apply]
  rw [chunk_max, chunk_max]

theorem pay32_apply (v2 : Vec Ideal S64x16 .f32) (v3 : Vec Ideal S64 .f32) (v147 : FVec Ideal S64 .f32) (v156 : FVec Ideal S64x16 .f32) (c : Fin 64) :
    k0_pay32 v2 v3 v147 v156 (ix1 c)
      = Ideal.logistic (v147 (ix1 c) + ((∑ r : Fin 16, v156 (ix2 c r) * v2 (ix2 c r)) + v3 (ix1 c))) := by
  unfold k0_pay32
  show Ideal.logistic _ = _
  simp only [addf_apply]
  rw [rows_add]
  rfl

end Cert.KernelIdeal.GateValue

end
-- ==== Proof.KernelBlock.lean ====
/-
  One grid point of the kernel as a function of its blocks: the stored image block is the loaded image block times the
  gate of each channel, and the gate is the pooled gate of the block's own channels.

  The body's sixteen loads of the image block are the chunks of sixteen rows; a chunk's sum and maximum, written over
  the chunk's own coordinates, are the pooled algebra's chunk sum and chunk maximum of the block at the matching rows.
  The running sum and maximum the payloads thread through the body are then the unrolled sixteen-term forms, which the
  algebra identifies with the plane's sum and maximum. The sixteen stores are sixteen pieces of one function of the
  block index, so the staging buffer after the body is that function.
-/
import proofs.«152617_j31447750541614_2_alg».proof.Proof.KernelGate

noncomputable section

namespace Cert.KernelIdeal.GateValue

open Cert.KernelIdeal Cert.KernelIdeal.Gen Idealize.ShloMosaic Idealize.ShloMosaic.TcCoe Idealize.SL.Sem
open Idealize.ShloMosaic.ValueIdx

/-! ## The image block by channel, row and lane; its chunks -/

/-- The image block at (channel, row, lane). -/
def img (x0 : Vec Ideal S1x64x256x256 .f32) (k : Fin 64) (h w : Fin 256) : EReal := x0 (ix4 0 k h w)

/-- A load of sixteen rows from row off, read at (0, channel, row in chunk, lane): the block at row off + row in chunk. -/
theorem ld_chunk (x0 : Vec Ideal S1x64x256x256 .f32) (off : Nat)
    (inb : ∀ a, (![0, 0, off, 0] : Fin 4 → Nat) a + S1x64x16x256.size a ≤ S1x64x256x256.size a)
    (k : Fin 64) (hh : Fin 16) (w : Fin 256) (h : Fin 256) (e : h.val = off + hh.val) :
    View.ld x0 (Rect.unit (s := S1x64x256x256) ![0, 0, off, 0] S1x64x16x256.size inb) (ix4 0 k hh w) = img x0 k h w := by
  show x0 _ = x0 _
  refine congrArg x0 (funext fun a => Fin.ext ?_)
  match a with
  | ⟨0, _⟩ => rfl
  | ⟨1, _⟩ => show 0 + 1 * k.val = k.val; omega
  | ⟨2, _⟩ => show off + 1 * hh.val = h.val; omega
  | ⟨3, _⟩ => show 0 + 1 * w.val = w.val; omega

/-- Chunk j's sum. -/
theorem CS_ld (x0 : Vec Ideal S1x64x256x256 .f32) (j : Fin 16) (off : Nat)
    (inb : ∀ a, (![0, 0, off, 0] : Fin 4 → Nat) a + S1x64x16x256.size a ≤ S1x64x256x256.size a) (hoff : off = 16 * j.val) (k : Fin 64) :
    CS (View.ld x0 (Rect.unit (s := S1x64x256x256) ![0, 0, off, 0] S1x64x16x256.size inb)) k = Pool.chunkSum (img x0 k) j :=
  Finset.sum_congr rfl fun hh _ => Finset.sum_congr rfl fun w _ =>
    ld_chunk x0 off inb k hh w (Pool.row j hh) (by rw [Pool.row_val, hoff])

/-- Chunk j's maximum. -/
theorem CM_ld (x0 : Vec Ideal S1x64x256x256 .f32) (j : Fin 16) (off : Nat)
    (inb : ∀ a, (![0, 0, off, 0] : Fin 4 → Nat) a + S1x64x16x256.size a ≤ S1x64x256x256.size a) (hoff : off = 16 * j.val) (k : Fin 64) :
    CM (View.ld x0 (Rect.unit (s := S1x64x256x256) ![0, 0, off, 0] S1x64x16x256.size inb)) k
      = Pool.chunkMax (Ideal.ofBits .f32 0xFF800000#32) (img x0 k) j :=
  Finset.fold_congr fun hh _ => Finset.fold_congr fun w _ =>
    ld_chunk x0 off inb k hh w (Pool.row j hh) (by rw [Pool.row_val, hoff])

/-! ## The running sum and maximum over the sixteen chunks -/

/-- The body's running sum after the sixteenth chunk is the channel's sum over the plane. -/
theorem sum_all (x0 : Vec Ideal S1x64x256x256 .f32) (k : Fin 64) :
    k0_pay26 (k0_pay20 (k0_pay13 (k0_pay8 (View.ld x0 r0_4) (View.ld x0 r0_5) (View.ld x0 r0_6)) (View.ld x0 r0_7) (View.ld x0 r0_8) (View.ld x0 r0_9))
        (k0_pay16 (View.ld x0 r0_10)) (View.ld x0 r0_11) (View.ld x0 r0_12) (View.ld x0 r0_13))
        (View.ld x0 r0_14) (View.ld x0 r0_15) (View.ld x0 r0_16) (View.ld x0 r0_17) (ix1 k)
      + CS (View.ld x0 r0_18) k + CS (View.ld x0 r0_19) k = Pool.sumHW (img x0 k) := by
  rw [pay26_apply, pay20_apply, pay13_apply, pay8_apply,
    show (∑ hh : Fin 16, k0_pay16 (View.ld x0 r0_10) (ix2 k hh)) = CS (View.ld x0 r0_10) k from
      Finset.sum_congr rfl fun hh _ => pay16_apply _ k hh]
  rw [CS_ld x0 0 0 _ rfl k, CS_ld x0 1 16 _ rfl k, CS_ld x0 2 32 _ rfl k, CS_ld x0 3 48 _ rfl k, CS_ld x0 4 64 _ rfl k,
    CS_ld x0 5 80 _ rfl k, CS_ld x0 6 96 _ rfl k, CS_ld x0 7 112 _ rfl k, CS_ld x0 8 128 _ rfl k, CS_ld x0 9 144 _ rfl k,
    CS_ld x0 10 160 _ rfl k, CS_ld x0 11 176 _ rfl k, CS_ld x0 12 192 _ rfl k, CS_ld x0 13 208 _ rfl k, CS_ld x0 14 224 _ rfl k,
    CS_ld x0 15 240 _ rfl k, Pool.ofBits_zero]
  exact Pool.running_sum (img x0 k)

/-- The body's running maximum after the sixteenth chunk is the channel's maximum over the plane. -/
theorem max_all (x0 : Vec Ideal S1x64x256x256 .f32) (k : Fin 64) :
    max (max (k0_pay27 (k0_pay21 (k0_pay14 (k0_pay6 (View.ld x0 r0_4) (View.ld x0 r0_5)) (k0_pay9 (View.ld x0 r0_6)) (View.ld x0 r0_7) (View.ld x0 r0_8) (View.ld x0 r0_9))
        (k0_pay15 (View.ld x0 r0_10)) (View.ld x0 r0_11) (View.ld x0 r0_12) (View.ld x0 r0_13))
        (View.ld x0 r0_14) (View.ld x0 r0_15) (View.ld x0 r0_16) (View.ld x0 r0_17) (ix1 k))
      (CM (View.ld x0 r0_18) k)) (CM (View.ld x0 r0_19) k) = Pool.maxHW (Ideal.ofBits .f32 0xFF800000#32) (img x0 k) := by
  rw [pay27_apply, pay21_apply, pay14_apply, pay6_apply,
    show ((Finset.univ : Finset (Fin 16)).fold max (Ideal.ofBits .f32 0xFF800000#32) fun hh => k0_pay9 (View.ld x0 r0_6) (ix2 k hh))
        = CM (View.ld x0 r0_6) k from Finset.fold_congr fun hh _ => pay9_apply _ k hh,
    show ((Finset.univ : Finset (Fin 16)).fold max (Ideal.ofBits .f32 0xFF800000#32) fun hh =>
          (Finset.univ : Finset (Fin 256)).fold max (Ideal.ofBits .f32 0xFF800000#32) fun w => k0_pay15 (View.ld x0 r0_10) (ix3 k hh w))
        = CM (View.ld x0 r0_10) k from Finset.fold_congr fun hh _ => Finset.fold_congr fun w _ => chunk_cast (View.ld x0 r0_10) k hh w]
  rw [CM_ld x0 0 0 _ rfl k, CM_ld x0 1 16 _ rfl k, CM_ld x0 2 32 _ rfl k, CM_ld x0 3 48 _ rfl k, CM_ld x0 4 64 _ rfl k,
    CM_ld x0 5 80 _ rfl k, CM_ld x0 6 96 _ rfl k, CM_ld x0 7 112 _ rfl k, CM_ld x0 8 128 _ rfl k, CM_ld x0 9 144 _ rfl k,
    CM_ld x0 10 160 _ rfl k, CM_ld x0 11 176 _ rfl k, CM_ld x0 12 192 _ rfl k, CM_ld x0 13 208 _ rfl k, CM_ld x0 14 224 _ rfl k,
    CM_ld x0 15 240 _ rfl k]
  exact Pool.running_max _ (img x0 k)

/-! ## The gate of a block -/

/-- The gate vector the body computes from its five blocks (the term every store's payload carries). -/
def gateK (x0 : Vec Ideal S1x64x256x256 .f32) (x1 : Vec Ideal S16x64 .f32) (x2 : Vec Ideal S16 .f32) (x3 : Vec Ideal S64x16 .f32)
    (x4 : Vec Ideal S64 .f32) : FVec Ideal S64 .f32 :=
  k0_pay32 (View.ld x3 r0_2) (View.ld x4 r0_3) (k0_pay30 (View.ld x1 r0_0) (View.ld x2 r0_1) (View.ld x3 r0_2) (View.ld x4 r0_3) (k0_pay26 (k0_pay20 (k0_pay13 (k0_pay8 (View.ld x0 r0_4) (View.ld x0 r0_5) (View.ld x0 r0_6)) (View.ld x0 r0_7) (View.ld x0 r0_8) (View.ld x0 r0_9)) (k0_pay16 (View.ld x0 r0_10)) (View.ld x0 r0_11) (View.ld x0 r0_12) (View.ld x0 r0_13)) (View.ld x0 r0_14) (View.ld x0 r0_15) (View.ld x0 r0_16) (View.ld x0 r0_17)) (View.ld x0 r0_18) (View.ld x0 r0_19)) (k0_pay31 (View.ld x1 r0_0) (View.ld x2 r0_1) (k0_pay27 (k0_pay21 (k0_pay14 (k0_pay6 (View.ld x0 r0_4) (View.ld x0 r0_5)) (k0_pay9 (View.ld x0 r0_6)) (View.ld x0 r0_7) (View.ld x0 r0_8) (View.ld x0 r0_9)) (k0_pay15 (View.ld x0 r0_10)) (View.ld x0 r0_11) (View.ld x0 r0_12) (View.ld x0 r0_13)) (View.ld x0 r0_14) (View.ld x0 r0_15) (View.ld x0 r0_16) (View.ld x0 r0_17)) (View.ld x0 r0_18) (View.ld x0 r0_19))

theorem hz2 : (![0, 0] : Fin 2 → Nat) = fun _ => 0 := funext fun a => by fin_cases a <;> rfl
theorem hz1 : (![0] : Fin 1 → Nat) = fun _ => 0 := funext fun a => by fin_cases a <;> rfl

/-- The body's gate at channel c is the pooled gate of the image block and the four small blocks. -/
theorem gateK_apply (x0 : Vec Ideal S1x64x256x256 .f32) (x1 : Vec Ideal S16x64 .f32) (x2 : Vec Ideal S16 .f32) (x3 : Vec Ideal S64x16 .f32)
    (x4 : Vec Ideal S64 .f32) (c : Fin 64) :
    gateK x0 x1 x2 x3 x4 (ix1 c)
      = Pool.gate (img x0) (fun r k => x1 (ix2 r k)) (fun r => x2 (ix1 r)) (fun c r => x3 (ix2 c r)) (fun c => x4 (ix1 c)) c := by
  unfold gateK
  rw [View.ld_unit_zero (S := S16x64) hz2, View.ld_unit_zero (S := S16) hz1, View.ld_unit_zero (S := S64x16) hz2,
    View.ld_unit_zero (S := S64) hz1]
  rw [pay32_apply, pay30_apply]
  unfold Pool.gate
  refine congrArg Ideal.logistic (congrArg₂ (· + ·) ?_ ?_)
  · refine congrArg (fun V => Pool.mlp (Ideal.ofBits .f32 0x00000000#32) V (fun r k => x1 (ix2 r k)) (fun r => x2 (ix1 r))
      (fun c r => x3 (ix2 c r)) (fun c => x4 (ix1 c)) c) (funext fun k => ?_)
    rw [sum_all, Pool.mul_inv_eq_div]
  · unfold Pool.mlp
    refine congrArg (· + x4 (ix1 c)) (Finset.sum_congr rfl fun r _ => congrArg (· * x3 (ix2 c r)) ?_)
    rw [pay31_apply]
    refine congrArg (fun V => Pool.hidden (Ideal.ofBits .f32 0x00000000#32) V (fun r k => x1 (ix2 r k)) (fun r => x2 (ix1 r)) r) (funext fun k => ?_)
    exact max_all x0 k

/-! ## The stored block -/

/-- A chunk of the image multiplied by the gate, at an index of the chunk. -/
theorem scaled_apply (y : FVec Ideal S64 .f32) (v : Vec Ideal S1x64x16x256 .f32) (k : Fin 64) (hh : Fin 16) (w : Fin 256) :
    shapeCast S1x64x16x256 (mulf (F := Ideal) (shapeCast S64x16x256 v shapeCasts_S1x64x16x256_S64x16x256)
        (broadcastTo S64x16x256 (shapeCast S64x1x1 y shapeCasts_S64_S64x1x1) broadcasts_S64x1x1_S64x16x256))
      shapeCasts_S64x16x256_S1x64x16x256 (ix4 0 k hh w) = v (ix4 0 k hh w) * y (ix1 k) := by
  refine (shapeCast_addUnit_apply ![64, 16, 256] _ _ (ix4 0 k hh w)).trans ?_
  show shapeCast S64x16x256 v shapeCasts_S1x64x16x256_S64x16x256 (ix3 k hh w) * broadcastTo S64x16x256 (shapeCast S64x1x1 y shapeCasts_S64_S64x1x1) broadcasts_S64x1x1_S64x16x256 (ix3 k hh w) = _
  rw [chunk_cast, gate_bcast]

/-- The function of the block index every store writes a piece of: the image block times its channel's gate. -/
def outBlock (x0 : Vec Ideal S1x64x256x256 .f32) (x1 : Vec Ideal S16x64 .f32) (x2 : Vec Ideal S16 .f32) (x3 : Vec Ideal S64x16 .f32)
    (x4 : Vec Ideal S64 .f32) : Vec Ideal S1x64x256x256 .f32 :=
  fun y => x0 y * gateK x0 x1 x2 x3 x4 (ix1 ⟨(y 1).val, (y 1).isLt⟩)

/-- One store's payload, at an index x of its sixteen rows, is that function at the index the store's rectangle places x. -/
theorem piece_eq (x0 : Vec Ideal S1x64x256x256 .f32) (x1 : Vec Ideal S16x64 .f32) (x2 : Vec Ideal S16 .f32) (x3 : Vec Ideal S64x16 .f32)
    (x4 : Vec Ideal S64 .f32) (off : Nat)
    (inb : ∀ a, (![0, 0, off, 0] : Fin 4 → Nat) a + S1x64x16x256.size a ≤ S1x64x256x256.size a) (x : S1x64x16x256.Idx) :
    shapeCast S1x64x16x256 (mulf (F := Ideal) (shapeCast S64x16x256 (View.ld x0 (Rect.unit (s := S1x64x256x256) ![0, 0, off, 0] S1x64x16x256.size inb)) shapeCasts_S1x64x16x256_S64x16x256)
        (broadcastTo S64x16x256 (shapeCast S64x1x1 (gateK x0 x1 x2 x3 x4) shapeCasts_S64_S64x1x1) broadcasts_S64x1x1_S64x16x256))
      shapeCasts_S64x16x256_S1x64x16x256 x
      = outBlock x0 x1 x2 x3 x4 ((Rect.unit (s := S1x64x256x256) ![0, 0, off, 0] S1x64x16x256.size inb).emb x) := by
  obtain ⟨z, k, hh, w, rfl⟩ : ∃ (z : Fin 1) (k : Fin 64) (hh : Fin 16) (w : Fin 256), x = ix4 z k hh w := ⟨x 0, x 1, x 2, x 3, eq_ix4 x⟩
  obtain rfl : z = 0 := Subsingleton.elim _ _
  rw [scaled_apply]
  unfold outBlock
  refine congrArg₂ (· * ·) rfl (congrArg (gateK x0 x1 x2 x3 x4) (congrArg ix1 (Fin.ext ?_)))
  show k.val = 0 + 1 * k.val
  omega

/-- The staging buffer after the body: its sixteen stores are sixteen pieces of one function of the block index. -/
theorem out_block (x0 : Vec Ideal S1x64x256x256 .f32) (x1 : Vec Ideal S16x64 .f32) (x2 : Vec Ideal S16 .f32) (x3 : Vec Ideal S64x16 .f32)
    (x4 : Vec Ideal S64 .f32) : out0_5 x0 x1 x2 x3 x4 = outBlock x0 x1 x2 x3 x4 := by
  funext y
  unfold out0_5
  refine View.canon_apply_of_pieces (outBlock x0 x1 x2 x3 x4) _ ?_ y (cover0_5 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  all_goals exact piece_eq x0 x1 x2 x3 x4 _ _ x

/-- The stored block against arrays: if the image block is image b of an array and the four small blocks are the four
    small arrays, the stored block at (channel, row, lane) is the specification at (b, channel, row, lane). -/
theorem block_spec (x0 : Vec Ideal S1x64x256x256 .f32) (x1 : Vec Ideal S16x64 .f32) (x2 : Vec Ideal S16 .f32) (x3 : Vec Ideal S64x16 .f32)
    (x4 : Vec Ideal S64 .f32) (a0 : S16x64x256x256.Idx → EReal) (a1 : S16x64.Idx → EReal) (a2 : S16.Idx → EReal)
    (a3 : S64x16.Idx → EReal) (a4 : S64.Idx → EReal) (b : Fin 16)
    (h0 : ∀ (k : Fin 64) (h w : Fin 256), x0 (ix4 0 k h w) = a0 (ix4 b k h w))
    (h1 : ∀ (r : Fin 16) (k : Fin 64), x1 (ix2 r k) = a1 (ix2 r k)) (h2 : ∀ r : Fin 16, x2 (ix1 r) = a2 (ix1 r))
    (h3 : ∀ (c : Fin 64) (r : Fin 16), x3 (ix2 c r) = a3 (ix2 c r)) (h4 : ∀ c : Fin 64, x4 (ix1 c) = a4 (ix1 c))
    (k : Fin 64) (h w : Fin 256) :
    outBlock x0 x1 x2 x3 x4 (ix4 0 k h w) = Pool.scaledAt a0 a1 a2 a3 a4 b k h w := by
  unfold outBlock Pool.scaledAt
  show x0 (ix4 0 k h w) * gateK x0 x1 x2 x3 x4 (ix1 k) = _
  rw [gateK_apply, h0]
  have e0 : img x0 = fun k h w => a0 (ix4 b k h w) := funext fun k => funext fun h => funext fun w => h0 k h w
  have e1 : (fun (r : Fin 16) (k : Fin 64) => x1 (ix2 r k)) = fun r k => a1 (ix2 r k) := funext fun r => funext fun k => h1 r k
  have e2 : (fun r : Fin 16 => x2 (ix1 r)) = fun r => a2 (ix1 r) := funext h2
  have e3 : (fun (c : Fin 64) (r : Fin 16) => x3 (ix2 c r)) = fun c r => a3 (ix2 c r) := funext fun c => funext fun r => h3 c r
  have e4 : (fun c : Fin 64 => x4 (ix1 c)) = fun c => a4 (ix1 c) := funext h4
  rw [e0, e1, e2, e3, e4]

end Cert.KernelIdeal.GateValue

end
-- ==== Proof.KernelValue.lean ====
/-
  The kernel's result array after the run, as one function of the argument arrays.

  The grid has sixteen points; point t stages image t of the input and of the output (block index t on the leading
  axis, zero on the others) and the four small arrays whole (block index zero throughout). So the image block a point
  loads is image t of the input array, the four small blocks are the small arrays, and what the point writes back is
  image t of the specification. The sixteen output blocks are the sixteen images: they cover the array, so after the
  run the array is the specification.
-/
import proofs.«152617_j31447750541614_2_alg».proof.Proof.Gen.KernelIdeal.Value
import proofs.«152617_j31447750541614_2_alg».proof.Proof.KernelBlock

noncomputable section

namespace Cert.KernelIdeal.GateValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The windows' block indices -/

/-- The printed index maps, decided over the sixteen points: the image windows move with the point along the leading
    axis, the small windows stay at block zero. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-- The image a point works on. -/
def imageOf (t : Fin cfg0.N) : Fin 16 := ⟨t.val, by have h := t.isLt; have e : cfg0.N = 16 := N_0; omega⟩

/-! ## The blocks a point loads -/

theorem read0 (c : Dev nD) (t : Fin cfg0.N) (k : Fin 64) (h w : Fin 256) :
    (iblk m c 0 t : Vec Ideal S1x64x256x256 .f32) (ix4 0 k h w) = V m c main_arg0 (ix4 (imageOf t) k h w) := by
  obtain ⟨e0, e1, e2, e3, -⟩ := idx_facts t
  show V m c main_arg0 (((cfg0.win 0).blk t).view.emb (ix4 0 k h w)) = _
  refine congrArg (V m c main_arg0) (funext fun a => Fin.ext ?_)
  match a with
  | ⟨0, _⟩ => show win0_0.index t (0 : Fin 4) * 1 + 1 * 0 = t.val; omega
  | ⟨1, _⟩ => show win0_0.index t (1 : Fin 4) * 64 + 1 * k.val = k.val; omega
  | ⟨2, _⟩ => show win0_0.index t (2 : Fin 4) * 256 + 1 * h.val = h.val; omega
  | ⟨3, _⟩ => show win0_0.index t (3 : Fin 4) * 256 + 1 * w.val = w.val; omega

theorem read1 (c : Dev nD) (t : Fin cfg0.N) (r : Fin 16) (k : Fin 64) :
    (iblk m c 1 t : Vec Ideal S16x64 .f32) (ix2 r k) = V m c main_arg1 (ix2 r k) := by
  obtain ⟨-, -, -, -, e0, e1, -⟩ := idx_facts t
  show V m c main_arg1 (((cfg0.win 1).blk t).view.emb (ix2 r k)) = _
  refine congrArg (V m c main_arg1) (funext fun a => Fin.ext ?_)
  match a with
  | ⟨0, _⟩ => show win0_1.index t (0 : Fin 2) * 16 + 1 * r.val = r.val; omega
  | ⟨1, _⟩ => show win0_1.index t (1 : Fin 2) * 64 + 1 * k.val = k.val; omega

theorem read2 (c : Dev nD) (t : Fin cfg0.N) (r : Fin 16) :
    (iblk m c 2 t : Vec Ideal S16 .f32) (ix1 r) = V m c main_arg2 (ix1 r) := by
  obtain ⟨-, -, -, -, -, -, e0, -⟩ := idx_facts t
  show V m c main_arg2 (((cfg0.win 2).blk t).view.emb (ix1 r)) = _
  refine congrArg (V m c main_arg2) (funext fun a => Fin.ext ?_)
  match a with
  | ⟨0, _⟩ => show win0_2.index t (0 : Fin 1) * 16 + 1 * r.val = r.val; omega

theorem read3 (c : Dev nD) (t : Fin cfg0.N) (k : Fin 64) (r : Fin 16) :
    (iblk m c 3 t : Vec Ideal S64x16 .f32) (ix2 k r) = V m c main_arg3 (ix2 k r) := by
  obtain ⟨-, -, -, -, -, -, -, e0, e1, -⟩ := idx_facts t
  show V m c main_arg3 (((cfg0.win 3).blk t).view.emb (ix2 k r)) = _
  refine congrArg (V m c main_arg3) (funext fun a => Fin.ext ?_)
  match a with
  | ⟨0, _⟩ => show win0_3.index t (0 : Fin 2) * 64 + 1 * k.val = k.val; omega
  | ⟨1, _⟩ => show win0_3.index t (1 : Fin 2) * 16 + 1 * r.val = r.val; omega

theorem read4 (c : Dev nD) (t : Fin cfg0.N) (k : Fin 64) :
    (iblk m c 4 t : Vec Ideal S64 .f32) (ix1 k) = V m c main_arg4 (ix1 k) := by
  obtain ⟨-, -, -, -, -, -, -, -, -, e0, -⟩ := idx_facts t
  show V m c main_arg4 (((cfg0.win 4).blk t).view.emb (ix1 k)) = _
  refine congrArg (V m c main_arg4) (funext fun a => Fin.ext ?_)
  match a with
  | ⟨0, _⟩ => show win0_4.index t (0 : Fin 1) * 64 + 1 * k.val = k.val; omega

/-! ## What a point writes back, and the array after the run -/

/-- WHAT POINT t WRITES BACK is image t of the specification of the argument arrays as the region finds them. -/
theorem flushed_eq (c : Dev nD) (t : Fin cfg0.N) :
    (dats m 0 c).flushed 5 t = ((cfg0.win 5).blk t).view.read (Elt Ideal)
      (Pool.scaled (V m c main_arg0) (V m c main_arg1) (V m c main_arg2) (V m c main_arg3) (V m c main_arg4)) := by
  rw [Value.flushed5, out_block]
  refine funext fun (j : S1x64x256x256.Idx) => ?_
  obtain ⟨z, k, h, w, rfl⟩ : ∃ (z : Fin 1) (k : Fin 64) (h w : Fin 256), j = ix4 z k h w := ⟨j 0, j 1, j 2, j 3, eq_ix4 j⟩
  obtain rfl : z = 0 := Subsingleton.elim _ _
  obtain ⟨-, -, -, -, -, -, -, -, -, -, e0, e1, e2, e3⟩ := idx_facts t
  show outBlock (iblk m c 0 t) (iblk m c 1 t) (iblk m c 2 t) (iblk m c 3 t) (iblk m c 4 t) (ix4 0 k h w)
    = Pool.scaled (V m c main_arg0) (V m c main_arg1) (V m c main_arg2) (V m c main_arg3) (V m c main_arg4)
        (((cfg0.win 5).blk t).view.emb (ix4 0 k h w))
  have he : ((cfg0.win 5).blk t).view.emb (ix4 0 k h w) = ix4 (imageOf t) k h w := funext fun a => Fin.ext (by
    match a with
    | ⟨0, _⟩ => show win0_5.index t (0 : Fin 4) * 1 + 1 * 0 = t.val; omega
    | ⟨1, _⟩ => show win0_5.index t (1 : Fin 4) * 64 + 1 * k.val = k.val; omega
    | ⟨2, _⟩ => show win0_5.index t (2 : Fin 4) * 256 + 1 * h.val = h.val; omega
    | ⟨3, _⟩ => show win0_5.index t (3 : Fin 4) * 256 + 1 * w.val = w.val; omega)
  rw [he, Pool.scaled_ix4]
  exact block_spec (iblk m c 0 t) (iblk m c 1 t) (iblk m c 2 t) (iblk m c 3 t) (iblk m c 4 t)
    (V m c main_arg0) (V m c main_arg1) (V m c main_arg2) (V m c main_arg3) (V m c main_arg4) (imageOf t)
    (read0 m c t) (read1 m c t) (read2 m c t) (read3 m c t) (read4 m c t) k h w

/-- An index of the array is in point t's block iff each coordinate is in the block's range on its axis. -/
theorem mem_blk (t : Fin cfg0.N) (i : S16x64x256x256.Idx) :
    i ∈ ((cfg0.win 5).blk t).view.set ↔ ∀ a : Fin 4, win0_5.index t a * S1x64x256x256.size a ≤ (i a).val
      ∧ (i a).val < win0_5.index t a * S1x64x256x256.size a + S1x64x256x256.size a := by
  show i ∈ ((View.whole main_v0).slice (win0_5.rect t)).set ↔ _
  rw [View.set_slice_whole, Rect.mem_set_unit]
  exact Iff.rfl

/-- Every index of the array is in the block of the point of its image. -/
theorem cover (i : S16x64x256x256.Idx) :
    ∃ t : Fin cfg0.N, (cfg0.win 5).flush t = true ∧ i ∈ ((cfg0.win 5).blk t).view.set := by
  have hi0 : (i 0).val < 16 := (i 0).isLt
  have hi1 : (i 1).val < 64 := (i 1).isLt
  have hi2 : (i 2).val < 256 := (i 2).isLt
  have hi3 : (i 3).val < 256 := (i 3).isLt
  have eN : cfg0.N = 16 := N_0
  obtain ⟨-, -, -, -, -, -, -, -, -, -, e0, e1, e2, e3⟩ := idx_facts ⟨(i 0).val, by omega⟩
  refine ⟨⟨(i 0).val, by omega⟩, flush0_5 _, ?_⟩
  rw [mem_blk]
  intro a
  match a with
  | ⟨0, _⟩ =>
    show win0_5.index ⟨(i 0).val, _⟩ (0 : Fin 4) * 1 ≤ (i 0).val ∧ (i 0).val < win0_5.index ⟨(i 0).val, _⟩ (0 : Fin 4) * 1 + 1
    have e0' : win0_5.index ⟨(i 0).val, _⟩ (0 : Fin 4) = (i 0).val := e0
    omega
  | ⟨1, _⟩ =>
    show win0_5.index ⟨(i 0).val, _⟩ (1 : Fin 4) * 64 ≤ (i 1).val ∧ (i 1).val < win0_5.index ⟨(i 0).val, _⟩ (1 : Fin 4) * 64 + 64
    omega
  | ⟨2, _⟩ =>
    show win0_5.index ⟨(i 0).val, _⟩ (2 : Fin 4) * 256 ≤ (i 2).val ∧ (i 2).val < win0_5.index ⟨(i 0).val, _⟩ (2 : Fin 4) * 256 + 256
    omega
  | ⟨3, _⟩ =>
    show win0_5.index ⟨(i 0).val, _⟩ (3 : Fin 4) * 256 ≤ (i 3).val ∧ (i 3).val < win0_5.index ⟨(i 0).val, _⟩ (3 : Fin 4) * 256 + 256
    omega

/-- THE ARRAY after the run: the specification of the argument arrays. -/
theorem final (c : Dev nD) :
    (dats m 0 c).arrAt 5 cfg0.N
      = Pool.scaled (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0)
        = Pool.scaled (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.GateValue

end
-- ==== Proof.RefGate.lean ====
/-
  The reference, read one operation at a time at the ideal instance, is the specification.

  The two reductions over rows and lanes are read by hand: an index of the input reduces to (image, channel) exactly when
  its first two coordinates are that image and channel, so the indices reducing there are the pairs (row, lane); the
  sum over them is the plane's sum, and the fold of max over them is the plane's maximum (by the fold's universal
  property). Everything else is a chain of the generated read-at-an-index lemmas: the two dense layers as sums over
  the contracted coordinate, the biases broadcast along the other axis, the rectifier as a maximum with the zero word,
  the logistic spelt as a quotient over one plus an exponential, and the gate broadcast over rows and lanes.
-/
import proofs.«152617_j31447750541614_2_alg».proof.Proof.Gen.ReferenceIdeal.Read
import proofs.«152617_j31447750541614_2_alg».proof.Proof.PoolAlgebra
import Idealize.ShloMosaic.Lib.ValueIdx
import Idealize.ShloMosaic.PureOps.Ideal.Laws

noncomputable section

namespace Cert.ReferenceIdeal.GateValue

open Cert.ReferenceIdeal Cert.ReferenceIdeal.Gen Cert.ReferenceIdeal.Read Idealize.ShloMosaic Idealize.ShloMosaic.TcCoe Idealize.SL.Sem
open Idealize.ShloMosaic.ValueIdx

/-! ## The reductions over rows and lanes -/

/-- An index reduces to (image b, channel k) iff its first two coordinates are b and k. -/
theorem drop_eq_iff (h' : S16x64x256x256.ReducesTo [2, 3] S16x64) (i : S16x64x256x256.Idx) (b : Fin 16) (k : Fin 64) :
    h'.drop i = ix2 b k ↔ (i 0).val = b.val ∧ (i 1).val = k.val := by
  have e0 : ((h'.drop i 0 : Fin 16) : Nat) = (i 0).val := Shape.ReducesTo.drop_apply_val_of_eq h' i 0 0
  have e1 : ((h'.drop i 1 : Fin 64) : Nat) = (i 1).val := Shape.ReducesTo.drop_apply_val_of_eq h' i 1 1
  constructor
  · intro h
    rw [h] at e0 e1
    exact ⟨e0.symm, e1.symm⟩
  · rintro ⟨h0, h1⟩
    funext a
    match a with
    | ⟨0, _⟩ => exact Fin.ext (e0.trans h0)
    | ⟨1, _⟩ => exact Fin.ext (e1.trans h1)

/-- Such an index is (b, k, its row, its lane). -/
theorem eq_of_drop (h' : S16x64x256x256.ReducesTo [2, 3] S16x64) (i : S16x64x256x256.Idx) (b : Fin 16) (k : Fin 64)
    (h : h'.drop i = ix2 b k) : i = ix4 b k ⟨(i 2).val, (i 2).isLt⟩ ⟨(i 3).val, (i 3).isLt⟩ := by
  obtain ⟨h0, h1⟩ := (drop_eq_iff h' i b k).1 h
  funext a
  match a with
  | ⟨0, _⟩ => exact Fin.ext h0
  | ⟨1, _⟩ => exact Fin.ext h1
  | ⟨2, _⟩ => rfl
  | ⟨3, _⟩ => rfl

theorem drop_ix4 (h' : S16x64x256x256.ReducesTo [2, 3] S16x64) (b : Fin 16) (k : Fin 64) (h w : Fin 256) :
    h'.drop (ix4 b k h w) = ix2 b k := (drop_eq_iff h' _ b k).2 ⟨rfl, rfl⟩

/-- The sum over the indices reducing to (b, k) is the plane's sum. -/
theorem sum_filter (h' : S16x64x256x256.ReducesTo [2, 3] S16x64) (x : S16x64x256x256.Idx → EReal) (b : Fin 16) (k : Fin 64) :
    ∑ i ∈ Finset.univ.filter (fun i => h'.drop i = ix2 b k), x i = Pool.sumHW (fun h w => x (ix4 b k h w)) := by
  unfold Pool.sumHW
  rw [← Fintype.sum_prod_type' (f := fun h w => x (ix4 b k h w))]
  refine Finset.sum_nbij' (fun i => ((⟨(i 2).val, (i 2).isLt⟩ : Fin 256), (⟨(i 3).val, (i 3).isLt⟩ : Fin 256)))
    (fun p => ix4 b k p.1 p.2) ?_ ?_ ?_ ?_ ?_
  · intro i _; exact Finset.mem_univ _
  · intro p _; exact Finset.mem_filter.2 ⟨Finset.mem_univ _, drop_ix4 h' b k p.1 p.2⟩
  · intro i hi; exact (eq_of_drop h' i b k (Finset.mem_filter.1 hi).2).symm
  · intro p _; rfl
  · intro i hi; exact congrArg x (eq_of_drop h' i b k (Finset.mem_filter.1 hi).2)

/-- The fold of max over the indices reducing to (b, k) is the plane's maximum. -/
theorem fold_filter (h' : S16x64x256x256.ReducesTo [2, 3] S16x64) (x : S16x64x256x256.Idx → EReal) (init : EReal) (b : Fin 16) (k : Fin 64) :
    (Finset.univ.filter fun i => h'.drop i = ix2 b k).fold max init x = Pool.maxHW init (fun h w => x (ix4 b k h w)) := by
  refine eq_of_forall_ge_iff fun z => ?_
  rw [Finset.fold_max_le, Pool.maxHW_le_iff]
  refine and_congr Iff.rfl ⟨fun H h w => H _ (Finset.mem_filter.2 ⟨Finset.mem_univ _, drop_ix4 h' b k h w⟩), fun H i hi => ?_⟩
  rw [eq_of_drop h' i b k (Finset.mem_filter.1 hi).2]
  exact H _ _

/-- The channel sums. -/
theorem ref_sum (a0 : S16x64x256x256.Idx → EReal) (b : Fin 16) (k : Fin 64) :
    val_main_v0 (F := Ideal) a0 (ix2 b k) = Pool.sumHW (fun h w => a0 (ix4 b k h w)) := by
  unfold val_main_v0
  show Ideal.hostReduceAdd reducesTo_S16x64x256x256_S16x64_d2_3 a0 (Ideal.ofBits .f32 0x00000000#32) (ix2 b k) = _
  unfold Ideal.hostReduceAdd
  rw [sum_filter, Pool.ofBits_zero, zero_add]

/-- The channel maxima. -/
theorem ref_max (a0 : S16x64x256x256.Idx → EReal) (b : Fin 16) (k : Fin 64) :
    val_main_v3 (F := Ideal) a0 (ix2 b k) = Pool.maxHW (Ideal.ofBits .f32 0xFF800000#32) (fun h w => a0 (ix4 b k h w)) := by
  unfold val_main_v3
  refine (Host.reduce_eq_fold (FloatOps.maximumf (F := Ideal) (φ := .f32)) a0 _ reducesTo_S16x64x256x256_S16x64_d2_3 h_S_ (ix2 b k)).trans ?_
  exact fold_filter reducesTo_S16x64x256x256_S16x64_d2_3 a0 _ b k

/-- The channel means. -/
theorem ref_avg (a0 : S16x64x256x256.Idx → EReal) (b : Fin 16) (k : Fin 64) :
    val_main_v2 (F := Ideal) a0 (ix2 b k)
      = Ideal.div (Pool.sumHW (fun h w => a0 (ix4 b k h w))) (Ideal.ofBits .f32 0x47800000#32) := by
  rw [val_main_v2_apply, val_main_v1_apply, val_main_cst_0_apply, ref_sum]
  rfl

/-! ## The perceptron at the means -/

theorem ref_hidden_avg (a0 : S16x64x256x256.Idx → EReal) (a1 : S16x64.Idx → EReal) (a2 : S16.Idx → EReal) (b r : Fin 16) :
    val_main_v8 (F := Ideal) a0 a1 a2 (ix2 b r)
      = Pool.hidden (Ideal.ofBits .f32 0x00000000#32)
          (fun k => Ideal.div (Pool.sumHW (fun h w => a0 (ix4 b k h w))) (Ideal.ofBits .f32 0x47800000#32))
          (fun r k => a1 (ix2 r k)) (fun r => a2 (ix1 r)) r := by
  rw [val_main_v8_apply, val_main_v7_apply, val_main_v4_apply, val_main_v6_apply, val_main_v5_apply, val_main_call0_v0_apply,
    val_main_call0_cst_apply]
  unfold Pool.hidden
  refine congrArg₂ max (congrArg₂ (· + ·) (Finset.sum_congr rfl fun k _ => ?_) (congrArg a2 ?_)) rfl
  · rw [show lidx_main_v4 (ix2 b r) k = ix2 b k from funext fun a => by match a with | ⟨0, _⟩ => rfl | ⟨1, _⟩ => rfl,
      show ridx_main_v4 (ix2 b r) k = ix2 r k from funext fun a => by match a with | ⟨0, _⟩ => rfl | ⟨1, _⟩ => rfl, ref_avg]
  · exact funext fun a => by match a with | ⟨0, _⟩ => rfl

theorem ref_mlp_avg (a0 : S16x64x256x256.Idx → EReal) (a1 : S16x64.Idx → EReal) (a2 : S16.Idx → EReal) (a3 : S64x16.Idx → EReal)
    (a4 : S64.Idx → EReal) (b : Fin 16) (c : Fin 64) :
    val_main_v12 (F := Ideal) a0 a1 a2 a3 a4 (ix2 b c)
      = Pool.mlp (Ideal.ofBits .f32 0x00000000#32)
          (fun k => Ideal.div (Pool.sumHW (fun h w => a0 (ix4 b k h w))) (Ideal.ofBits .f32 0x47800000#32))
          (fun r k => a1 (ix2 r k)) (fun r => a2 (ix1 r)) (fun c r => a3 (ix2 c r)) (fun c => a4 (ix1 c)) c := by
  rw [val_main_v12_apply, val_main_v9_apply, val_main_v11_apply, val_main_v10_apply]
  unfold Pool.mlp
  refine congrArg₂ (· + ·) (Finset.sum_congr rfl fun r _ => ?_) (congrArg a4 ?_)
  · rw [show lidx_main_v9 (ix2 b c) r = ix2 b r from funext fun a => by match a with | ⟨0, _⟩ => rfl | ⟨1, _⟩ => rfl,
      show ridx_main_v9 (ix2 b c) r = ix2 c r from funext fun a => by match a with | ⟨0, _⟩ => rfl | ⟨1, _⟩ => rfl, ref_hidden_avg]
  · exact funext fun a => by match a with | ⟨0, _⟩ => rfl

/-! ## The perceptron at the maxima -/

theorem ref_hidden_max (a0 : S16x64x256x256.Idx → EReal) (a1 : S16x64.Idx → EReal) (a2 : S16.Idx → EReal) (b r : Fin 16) :
    val_main_v17 (F := Ideal) a0 a1 a2 (ix2 b r)
      = Pool.hidden (Ideal.ofBits .f32 0x00000000#32)
          (fun k => Pool.maxHW (Ideal.ofBits .f32 0xFF800000#32) (fun h w => a0 (ix4 b k h w)))
          (fun r k => a1 (ix2 r k)) (fun r => a2 (ix1 r)) r := by
  rw [val_main_v17_apply, val_main_v16_apply, val_main_v13_apply, val_main_v15_apply, val_main_v14_apply, val_main_call1_v0_apply,
    val_main_call1_cst_apply]
  unfold Pool.hidden
  refine congrArg₂ max (congrArg₂ (· + ·) (Finset.sum_congr rfl fun k _ => ?_) (congrArg a2 ?_)) rfl
  · rw [show lidx_main_v13 (ix2 b r) k = ix2 b k from funext fun a => by match a with | ⟨0, _⟩ => rfl | ⟨1, _⟩ => rfl,
      show ridx_main_v13 (ix2 b r) k = ix2 r k from funext fun a => by match a with | ⟨0, _⟩ => rfl | ⟨1, _⟩ => rfl, ref_max]
  · exact funext fun a => by match a with | ⟨0, _⟩ => rfl

theorem ref_mlp_max (a0 : S16x64x256x256.Idx → EReal) (a1 : S16x64.Idx → EReal) (a2 : S16.Idx → EReal) (a3 : S64x16.Idx → EReal)
    (a4 : S64.Idx → EReal) (b : Fin 16) (c : Fin 64) :
    val_main_v21 (F := Ideal) a0 a1 a2 a3 a4 (ix2 b c)
      = Pool.mlp (Ideal.ofBits .f32 0x00000000#32)
          (fun k => Pool.maxHW (Ideal.ofBits .f32 0xFF800000#32) (fun h w => a0 (ix4 b k h w)))
          (fun r k => a1 (ix2 r k)) (fun r => a2 (ix1 r)) (fun c r => a3 (ix2 c r)) (fun c => a4 (ix1 c)) c := by
  rw [val_main_v21_apply, val_main_v18_apply, val_main_v20_apply, val_main_v19_apply]
  unfold Pool.mlp
  refine congrArg₂ (· + ·) (Finset.sum_congr rfl fun r _ => ?_) (congrArg a4 ?_)
  · rw [show lidx_main_v18 (ix2 b c) r = ix2 b r from funext fun a => by match a with | ⟨0, _⟩ => rfl | ⟨1, _⟩ => rfl,
      show ridx_main_v18 (ix2 b c) r = ix2 c r from funext fun a => by match a with | ⟨0, _⟩ => rfl | ⟨1, _⟩ => rfl, ref_hidden_max]
  · exact funext fun a => by match a with | ⟨0, _⟩ => rfl

/-! ## The gate and the result -/

theorem ref_gate (a0 : S16x64x256x256.Idx → EReal) (a1 : S16x64.Idx → EReal) (a2 : S16.Idx → EReal) (a3 : S64x16.Idx → EReal)
    (a4 : S64.Idx → EReal) (b : Fin 16) (c : Fin 64) :
    val_main_v28 (F := Ideal) a0 a1 a2 a3 a4 (ix2 b c)
      = Pool.gate (fun k h w => a0 (ix4 b k h w)) (fun r k => a1 (ix2 r k)) (fun r => a2 (ix1 r)) (fun c r => a3 (ix2 c r))
          (fun c => a4 (ix1 c)) c := by
  rw [val_main_v28_apply, val_main_v27_apply, val_main_cst_3_apply, val_main_v26_apply, val_main_v25_apply, val_main_cst_2_apply,
    val_main_v24_apply, val_main_v23_apply, val_main_v22_apply, ref_mlp_avg, ref_mlp_max]
  exact Pool.div_one_add_exp_neg _

/-- The reference's result is the specification. -/
theorem ref_eq (a0 : S16x64x256x256.Idx → EReal) (a1 : S16x64.Idx → EReal) (a2 : S16.Idx → EReal) (a3 : S64x16.Idx → EReal)
    (a4 : S64.Idx → EReal) :
    val_main_v31 (F := Ideal) a0 a1 a2 a3 a4 = Pool.scaled a0 a1 a2 a3 a4 := by
  funext i
  obtain ⟨b, c, h, w, rfl⟩ : ∃ (b : Fin 16) (c : Fin 64) (h w : Fin 256), i = ix4 b c h w := ⟨i 0, i 1, i 2, i 3, eq_ix4 i⟩
  rw [Pool.scaled_ix4, val_main_v31_apply, val_main_v30_apply, val_main_v29_apply,
    show idx_main_v29 (idx_main_v30 (ix4 b c h w)) = ix2 b c from funext fun a => by match a with | ⟨0, _⟩ => rfl | ⟨1, _⟩ => rfl,
    ref_gate]
  rfl

end Cert.ReferenceIdeal.GateValue

end
-- ==== Proof.lean ====
/-
  The certificate of the fused channel-attention kernel against its jnp reference.

  Both programs take a batch of sixteen images of 64 channels of 256 x 256 numbers and two small dense layers; both pool
  every channel of every image to its mean and to its maximum, run the two layers on the 64 means and on the 64 maxima,
  add the two outputs, squash with the logistic, and multiply every pixel of a channel by that channel's number. The
  kernel does one image per grid point, pools in sixteen chunks of sixteen rows, takes the mean as the sum times 2^-16,
  writes the dense layers as broadcast, multiply and add along the last axis, and calls the logistic by name; the
  reference reduces over rows and lanes at once, divides by 65536, uses two matrix products, and spells the logistic as
  a quotient. At the ideal instance these are one function of the arguments at every extended-real input: sums and
  maxima regroup freely, 2^-16 is exactly 1/65536, the broadcast-multiply-add is the matrix product term by term, and
  the logistic is its spelling. So the precondition is never opened.

  The three frames are the generated ones (the reference's is its generated run with the result dropped); the idealized
  kernel is the kernel's own text read at the ideal instance, so there is nothing to preserve; and the algebraic claim
  sets the kernel's run beside the reference's with both results at the one specification.
-/
import proofs.«152617_j31447750541614_2_alg».proof.Defs
import proofs.«152617_j31447750541614_2_alg».proof.Proof.Gen.Kernel
import proofs.«152617_j31447750541614_2_alg».proof.Proof.Gen.Kernel.Skeleton
import proofs.«152617_j31447750541614_2_alg».proof.Proof.Gen.Kernel.Launch
import proofs.«152617_j31447750541614_2_alg».proof.Proof.Gen.Kernel.Points
import proofs.«152617_j31447750541614_2_alg».proof.Proof.Gen.Kernel.Frame
import proofs.«152617_j31447750541614_2_alg».proof.Proof.Gen.KernelIdeal
import proofs.«152617_j31447750541614_2_alg».proof.Proof.Gen.KernelIdeal.Skeleton
import proofs.«152617_j31447750541614_2_alg».proof.Proof.Gen.KernelIdeal.Launch
import proofs.«152617_j31447750541614_2_alg».proof.Proof.Gen.KernelIdeal.Points
import proofs.«152617_j31447750541614_2_alg».proof.Proof.Gen.KernelIdeal.Frame
import proofs.«152617_j31447750541614_2_alg».proof.Proof.Gen.ReferenceIdeal
import proofs.«152617_j31447750541614_2_alg».proof.Proof.Gen.Pre_finite_inputs
import proofs.«152617_j31447750541614_2_alg».proof.Proof.Gen.KernelIdeal.Value
import proofs.«152617_j31447750541614_2_alg».proof.Proof.Gen.ReferenceIdeal.Run
import proofs.«152617_j31447750541614_2_alg».proof.Proof.Gen.ReferenceIdeal.Read
import proofs.«152617_j31447750541614_2_alg».proof.Proof.KernelValue
import proofs.«152617_j31447750541614_2_alg».proof.Proof.RefGate
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both runs end with the result array at the specification of the
    arguments: the kernel's by its blocks, the reference's by its operations read one at a time. -/
theorem algebraic : Cert.algebraic_KernelIdeal_ReferenceIdeal := by
  intro m ρ m' ρ' _ hagree
  refine ⟨_, Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.GateValue.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
